-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v5)) (v1 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_v6) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_v14) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x16x2048x64 : Shape := ⟨4, ![2, 16, 2048, 64]⟩
abbrev S2x16x2048x2048 : Shape := ⟨4, ![2, 16, 2048, 2048]⟩
abbrev S_ : Shape := ⟨0, ![]⟩

class Facts : Prop where
  bcast_S_S2x16x2048x64 : S_.BroadcastsInDim S2x16x2048x64 (![] : Fin 0 → Fin S2x16x2048x64.rank)
  reducesTo_S2x16x2048x64_S_d0_1_2_3 : S2x16x2048x64.ReducesTo [0, 1, 2, 3] S_
  h_S_ : 0 < S_.numel
  bcast_S_S2x16x2048x2048 : S_.BroadcastsInDim S2x16x2048x2048 (![] : Fin 0 → Fin S2x16x2048x2048.rank)
  reducesTo_S2x16x2048x2048_S_d0_1_2_3 : S2x16x2048x2048.ReducesTo [0, 1, 2, 3] S_

variable [Facts]

def fn_part1 {F : FTy → Type} [FloatOps F] (main_v13 : IVec S_ 1) (main_v16 : IVec S2x16x2048x2048 1) : IVec S_ 1 :=
  let main_c_5 : IVec S_ 1 := constantI S_ 1 1#1
  let main_v17 : IVec S_ 1 := (fun x v => Host.reduce IntOp.andi x v reducesTo_S2x16x2048x2048_S_d0_1_2_3 h_S_) main_v16 main_c_5
  let main_v18 : IVec S_ 1 := andi main_v13 main_v17
  main_v18

def fn {F : FTy → Type} [FloatOps F] (main_arg0 : FVec F S2x16x2048x64 .f32) (main_arg1 : FVec F S2x16x2048x64 .f32) (main_arg2 : FVec F S2x16x2048x64 .f32) (main_arg3 : FVec F S2x16x2048x2048 .f32) : IVec S_ 1 :=
  let main_v0 : FVec F S2x16x2048x64 .f32 := Host.absf main_arg0
  let main_cst : FVec F S_ .f32 := constant S_ .f32 0x7F800000#32
  let main_v1 : FVec F S2x16x2048x64 .f32 := broadcastInDim S2x16x2048x64 ![] bcast_S_S2x16x2048x64 main_cst
  let main_v2 : IVec S2x16x2048x64 1 := cmpf .olt main_v0 main_v1
  let main_c : IVec S_ 1 := constantI S_ 1 1#1
  let main_v3 : IVec S_ 1 := (fun x v => Host.reduce IntOp.andi x v reducesTo_S2x16x2048x64_S_d0_1_2_3 h_S_) main_v2 main_c
  let main_v4 : FVec F S2x16x2048x64 .f32 := Host.absf main_arg1
  let main_cst_0 : FVec F S_ .f32 := constant S_ .f32 0x7F800000#32
  let main_v5 : FVec F S2x16x2048x64 .f32 := broadcastInDim S2x16x2048x64 ![] bcast_S_S2x16x2048x64 main_cst_0
  let main_v6 : IVec S2x16x2048x64 1 := cmpf .olt main_v4 main_v5
  let main_c_1 : IVec S_ 1 := constantI S_ 1 1#1
  let main_v7 : IVec S_ 1 := (fun x v => Host.reduce IntOp.andi x v reducesTo_S2x16x2048x64_S_d0_1_2_3 h_S_) main_v6 main_c_1
  let main_v8 : IVec S_ 1 := andi main_v3 main_v7
  let main_v9 : FVec F S2x16x2048x64 .f32 := Host.absf main_arg2
  let main_cst_2 : FVec F S_ .f32 := constant S_ .f32 0x7F800000#32
  let main_v10 : FVec F S2x16x2048x64 .f32 := broadcastInDim S2x16x2048x64 ![] bcast_S_S2x16x2048x64 main_cst_2
  let main_v11 : IVec S2x16x2048x64 1 := cmpf .olt main_v9 main_v10
  let main_c_3 : IVec S_ 1 := constantI S_ 1 1#1
  let main_v12 : IVec S_ 1 := (fun x v => Host.reduce IntOp.andi x v reducesTo_S2x16x2048x64_S_d0_1_2_3 h_S_) main_v11 main_c_3
  let main_v13 : IVec S_ 1 := andi main_v8 main_v12
  let main_v14 : FVec F S2x16x2048x2048 .f32 := Host.absf main_arg3
  let main_cst_4 : FVec F S_ .f32 := constant S_ .f32 0x7F800000#32
  let main_v15 : FVec F S2x16x2048x2048 .f32 := broadcastInDim S2x16x2048x2048 ![] bcast_S_S2x16x2048x2048 main_cst_4
  let main_v16 : IVec S2x16x2048x2048 1 := cmpf .olt main_v14 main_v15
  fn_part1 (F := F) main_v13 main_v16
-- ==== Kernel.lean ====
abbrev S2x16x2048x64 : Shape := ⟨4, ![2, 16, 2048, 64]⟩
abbrev S2x16x2048x2048 : Shape := ⟨4, ![2, 16, 2048, 2048]⟩
abbrev S32x2048x64 : Shape := ⟨3, ![32, 2048, 64]⟩
abbrev S32x2048x2048 : Shape := ⟨3, ![32, 2048, 2048]⟩
abbrev S1x512x64 : Shape := ⟨3, ![1, 512, 64]⟩
abbrev S1x2048x64 : Shape := ⟨3, ![1, 2048, 64]⟩
abbrev S1x512x2048 : Shape := ⟨3, ![1, 512, 2048]⟩
abbrev S512x64 : Shape := ⟨2, ![512, 64]⟩
abbrev S2048x64 : Shape := ⟨2, ![2048, 64]⟩
abbrev S512x2048 : Shape := ⟨2, ![512, 2048]⟩
abbrev S512 : Shape := ⟨1, ![512]⟩
abbrev S512x1 : Shape := ⟨2, ![512, 1]⟩

abbrev nBuf : Space → Nat
  | .hbm => 12
  | .vmem => 10
  | .smem => 0
  | _ => 0

abbrev bufTy : (tb : Table) → Fin (tcTables nBuf tb) → BufTy
  | .hbm, ⟨0, _⟩ => ⟨S2x16x2048x64, .f32⟩
  | .hbm, ⟨1, _⟩ => ⟨S2x16x2048x64, .f32⟩
  | .hbm, ⟨2, _⟩ => ⟨S2x16x2048x64, .f32⟩
  | .hbm, ⟨3, _⟩ => ⟨S2x16x2048x2048, .f32⟩
  | .hbm, ⟨4, _⟩ => ⟨S32x2048x64, .f32⟩
  | .hbm, ⟨5, _⟩ => ⟨S32x2048x64, .f32⟩
  | .hbm, ⟨6, _⟩ => ⟨S32x2048x64, .f32⟩
  | .hbm, ⟨7, _⟩ => ⟨S32x2048x2048, .f32⟩
  | .hbm, ⟨8, _⟩ => ⟨S32x2048x64, .f32⟩
  | .hbm, ⟨9, _⟩ => ⟨S32x2048x2048, .f32⟩
  | .hbm, ⟨10, _⟩ => ⟨S2x16x2048x64, .f32⟩
  | .hbm, ⟨11, _⟩ => ⟨S2x16x2048x2048, .f32⟩
  | .local _ .vmem, ⟨0, _⟩ => ⟨S1x512x64, .f32⟩
  | .local _ .vmem, ⟨1, _⟩ => ⟨S1x512x64, .f32⟩
  | .local _ .vmem, ⟨2, _⟩ => ⟨S1x2048x64, .f32⟩
  | .local _ .vmem, ⟨3, _⟩ => ⟨S1x2048x64, .f32⟩
  | .local _ .vmem, ⟨4, _⟩ => ⟨S1x512x2048, .f32⟩
  | .local _ .vmem, ⟨5, _⟩ => ⟨S1x512x2048, .f32⟩
  | .local _ .vmem, ⟨6, _⟩ => ⟨S1x512x64, .f32⟩
  | .local _ .vmem, ⟨7, _⟩ => ⟨S1x512x64, .f32⟩
  | .local _ .vmem, ⟨8, _⟩ => ⟨S1x512x2048, .f32⟩
  | .local _ .vmem, ⟨9, _⟩ => ⟨S1x512x2048, .f32⟩
  | _, _ => ⟨S2x16x2048x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![32, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x2048x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S1x2048x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 2 → Memref sig .tc .vmem S1x512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

class Facts₀ : Prop where
  shapeCasts_S2x16x2048x64_S32x2048x64 : S2x16x2048x64.ShapeCasts S32x2048x64
  shapeCasts_S2x16x2048x2048_S32x2048x2048 : S2x16x2048x2048.ShapeCasts S32x2048x2048
  inb_S1x512x64_S1x512x64_0_0_0 : ∀ a, (![0, 0, 0] : Fin 3 → Nat) a + S1x512x64.size a ≤ S1x512x64.size a
  h_S1x512x64 : 0 < S1x512x64.numel
  shapeCasts_S1x512x64_S512x64 : S1x512x64.ShapeCasts S512x64
  inb_S1x2048x64_S1x2048x64_0_0_0 : ∀ a, (![0, 0, 0] : Fin 3 → Nat) a + S1x2048x64.size a ≤ S1x2048x64.size a
  h_S1x2048x64 : 0 < S1x2048x64.numel
  shapeCasts_S1x2048x64_S2048x64 : S1x2048x64.ShapeCasts S2048x64
  inb_S1x512x2048_S1x512x2048_0_0_0 : ∀ a, (![0, 0, 0] : Fin 3 → Nat) a + S1x512x2048.size a ≤ S1x512x2048.size a
  h_S1x512x2048 : 0 < S1x512x2048.numel
  shapeCasts_S1x512x2048_S512x2048 : S1x512x2048.ShapeCasts S512x2048
  bitsLt_bf16_f32 : FTy.bits .bf16 < FTy.bits .f32
  reduces_S512x2048_S512 : S512x2048.Reduces [1] S512
  shapeCasts_S512_S512x1 : S512.ShapeCasts S512x1
  broadcasts_S512x1_S512x2048 : S512x1.Broadcasts S512x2048
  shapeCasts_S512x2048_S1x512x2048 : S512x2048.ShapeCasts S1x512x2048
  broadcasts_S512x1_S512x64 : S512x1.Broadcasts S512x64
  shapeCasts_S512x64_S1x512x64 : S512x64.ShapeCasts S1x512x64
  shapeCasts_S32x2048x64_S2x16x2048x64 : S32x2048x64.ShapeCasts S2x16x2048x64
  shapeCasts_S32x2048x2048_S2x16x2048x2048 : S32x2048x2048.ShapeCasts S2x16x2048x2048
  dot_S512x64_S2048x64_S512x2048_1_1_0_0_n_n_wf : DotDims.WF S512x64 S2048x64 S512x2048 [1] [1] [0] [0] [] []
  dot_S512x2048_S2048x64_S512x64_1_0_0_1_n_n_wf : DotDims.WF S512x2048 S2048x64 S512x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x64.size a ≤ S32x2048x64.size a
  hwx0_0 : ∀ i : grid0.Coords, EltTy.bits .f32 = 32 ∨ (Rect.block (s := S32x2048x64) S1x512x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x2048x64.size a ≤ S32x2048x64.size a
  hwx0_1 : ∀ i : grid0.Coords, EltTy.bits .f32 = 32 ∨ (Rect.block (s := S32x2048x64) S1x2048x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x2048x64.size a ≤ S32x2048x64.size a
  hwx0_2 : ∀ i : grid0.Coords, EltTy.bits .f32 = 32 ∨ (Rect.block (s := S32x2048x64) S1x2048x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512x2048.size a ≤ S32x2048x2048.size a
  hwx0_3 : ∀ i : grid0.Coords, EltTy.bits .f32 = 32 ∨ (Rect.block (s := S32x2048x2048) S1x512x2048.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x512x64.size a ≤ S32x2048x64.size a
  hwx0_4 : ∀ i : grid0.Coords, EltTy.bits .f32 = 32 ∨ (Rect.block (s := S32x2048x64) S1x512x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x512x2048.size a ≤ S32x2048x2048.size a
  hwx0_5 : ∀ i : grid0.Coords, EltTy.bits .f32 = 32 ∨ (Rect.block (s := S32x2048x2048) S1x512x2048.size (cc0_transform_5 i) (hinb0_5 i)).WholeWords (EltTy.packing .f32)

variable [Facts₀]

def dot_S512x64_S2048x64_S512x2048_1_1_0_0_n_n : DotDims S512x64 S2048x64 S512x2048 where
  lhsContracting := [1]
  rhsContracting := [1]
  lhsNonContracting := [0]
  rhsNonContracting := [0]
  lhsBatch := []
  rhsBatch := []
  wf := dot_S512x64_S2048x64_S512x2048_1_1_0_0_n_n_wf
def dot_S512x2048_S2048x64_S512x64_1_0_0_1_n_n : DotDims S512x2048 S2048x64 S512x64 where
  lhsContracting := [1]
  rhsContracting := [0]
  lhsNonContracting := [0]
  rhsNonContracting := [1]
  lhsBatch := []
  rhsBatch := []
  wf := dot_S512x2048_S2048x64_S512x64_1_0_0_1_n_n_wf

abbrev win0_0 : Pipeline.Window sig grid0 :=
  Pipeline.Window.ofSpec (Memref.whole main_v0) S1x512x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x2048x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x2048x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x512x2048.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v4_0) S1x512x64.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v4_1) S1x512x2048.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S2x16x2048x64 : Shape := ⟨4, ![2, 16, 2048, 64]⟩
abbrev S2x16x2048x2048 : Shape := ⟨4, ![2, 16, 2048, 2048]⟩
abbrev S_ : Shape := ⟨0, ![]⟩
abbrev S2x16x2048 : Shape := ⟨3, ![2, 16, 2048]⟩
abbrev S2x16x2048x1 : Shape := ⟨4, ![2, 16, 2048, 1]⟩

abbrev nBuf : Space → Nat
  | .hbm => 24
  | .vmem => 0
  | .smem => 0
  | _ => 0

abbrev bufTy : (tb : Table) → Fin (tcTables nBuf tb) → BufTy
  | .hbm, ⟨0, _⟩ => ⟨S2x16x2048x64, .f32⟩
  | .hbm, ⟨1, _⟩ => ⟨S2x16x2048x64, .f32⟩
  | .hbm, ⟨2, _⟩ => ⟨S2x16x2048x64, .f32⟩
  | .hbm, ⟨3, _⟩ => ⟨S2x16x2048x2048, .f32⟩
  | .hbm, ⟨4, _⟩ => ⟨S2x16x2048x2048, .f32⟩
  | .hbm, ⟨5, _⟩ => ⟨S_, .f32⟩
  | .hbm, ⟨6, _⟩ => ⟨S2x16x2048x2048, .f32⟩
  | .hbm, ⟨7, _⟩ => ⟨S2x16x2048x2048, .f32⟩
  | .hbm, ⟨8, _⟩ => ⟨S2x16x2048x2048, .f32⟩
  | .hbm, ⟨9, _⟩ => ⟨S_, .f32⟩
  | .hbm, ⟨10, _⟩ => ⟨S2x16x2048, .f32⟩
  | .hbm, ⟨11, _⟩ => ⟨S_, .f32⟩
  | .hbm, ⟨12, _⟩ => ⟨S2x16x2048, .f32⟩
  | .hbm, ⟨13, _⟩ => ⟨S2x16x2048, .f32⟩
  | .hbm, ⟨14, _⟩ => ⟨S2x16x2048x1, .f32⟩
  | .hbm, ⟨15, _⟩ => ⟨S2x16x2048x2048, .f32⟩
  | .hbm, ⟨16, _⟩ => ⟨S2x16x2048x2048, .f32⟩
  | .hbm, ⟨17, _⟩ => ⟨S2x16x2048x2048, .f32⟩
  | .hbm, ⟨18, _⟩ => ⟨S_, .f32⟩
  | .hbm, ⟨19, _⟩ => ⟨S2x16x2048, .f32⟩
  | .hbm, ⟨20, _⟩ => ⟨S2x16x2048x1, .f32⟩
  | .hbm, ⟨21, _⟩ => ⟨S2x16x2048x2048, .f32⟩
  | .hbm, ⟨22, _⟩ => ⟨S2x16x2048x2048, .f32⟩
  | .hbm, ⟨23, _⟩ => ⟨S2x16x2048x64, .f32⟩
  | _, _ => ⟨S2x16x2048x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_2 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩

abbrev nD : Nat := 1
abbrev τ : Topo := Topo.v7x

variable {F : FTy → Type} [FloatOps F]

class Facts₀ : Prop where
  bcast_S_S2x16x2048x2048 : S_.BroadcastsInDim S2x16x2048x2048 (![] : Fin 0 → Fin S2x16x2048x2048.rank)
  reducesTo_S2x16x2048x2048_S2x16x2048_d3 : S2x16x2048x2048.ReducesTo [3] S2x16x2048
  h_S_ : 0 < S_.numel
  bcast_S_S2x16x2048 : S_.BroadcastsInDim S2x16x2048 (![] : Fin 0 → Fin S2x16x2048.rank)
  bcast_S2x16x2048_S2x16x2048x1_0_1_2 : S2x16x2048.BroadcastsInDim S2x16x2048x1 (![0, 1, 2] : Fin 3 → Fin S2x16x2048x1.rank)
  bcast_S2x16x2048x1_S2x16x2048x2048_0_1_2_3 : S2x16x2048x1.BroadcastsInDim S2x16x2048x2048 (![0, 1, 2, 3] : Fin 4 → Fin S2x16x2048x2048.rank)
  dot_S2x16x2048x64_S2x16x2048x64_S2x16x2048x2048_3_3_2_2_01_01_wf : DotDims.WF S2x16x2048x64 S2x16x2048x64 S2x16x2048x2048 [3] [3] [2] [2] [0, 1] [0, 1]
  dot_S2x16x2048x2048_S2x16x2048x64_S2x16x2048x64_3_2_2_3_01_01_wf : DotDims.WF S2x16x2048x2048 S2x16x2048x64 S2x16x2048x64 [3] [2] [2] [3] [0, 1] [0, 1]

variable [Facts₀]

def dot_S2x16x2048x64_S2x16x2048x64_S2x16x2048x2048_3_3_2_2_01_01 : DotDims S2x16x2048x64 S2x16x2048x64 S2x16x2048x2048 where
  lhsContracting := [3]
  rhsContracting := [3]
  lhsNonContracting := [2]
  rhsNonContracting := [2]
  lhsBatch := [0, 1]
  rhsBatch := [0, 1]
  wf := dot_S2x16x2048x64_S2x16x2048x64_S2x16x2048x2048_3_3_2_2_01_01_wf
def dot_S2x16x2048x2048_S2x16x2048x64_S2x16x2048x64_3_2_2_3_01_01 : DotDims S2x16x2048x2048 S2x16x2048x64 S2x16x2048x64 where
  lhsContracting := [3]
  rhsContracting := [2]
  lhsNonContracting := [2]
  rhsNonContracting := [3]
  lhsBatch := [0, 1]
  rhsBatch := [0, 1]
  wf := dot_S2x16x2048x2048_S2x16x2048x64_S2x16x2048x64_3_2_2_3_01_01_wf

class Facts : Prop extends Facts₀ where

variable [Facts]
-- ==== Proof.LibRealOps.lean ====
/-
  Real numbers inside the extended reals: the facts that carry "every value is a real number" through a program.

  A program read over the extended reals is exact, but its algebra is the reals' only where no infinity occurs:
  distributivity and cancellation fail at an infinite factor. A precondition that every input is finite therefore has
  to be carried through the program: each intermediate is shown to be the coercion of a real, and the law wanted is then
  the reals'. This file has the two element tests a printed precondition is made of (|x| < +infinity says x is a real;
  v >= 0 says what it says), and the closure of the reals under what such programs do to them: a finite sum (this
  Mathlib has no coercion lemma for it), a sum of products (a matrix product's entry) onto a real accumulator, a quotient
  by a non-zero real, a maximum, and a square root of a non-negative real.
-/
import Idealize.ShloMosaic.PureOps.Ideal

noncomputable section

namespace Idealize.ShloMosaic.RealOps

open Idealize.ShloMosaic

/-! ## The element tests of a precondition -/

/-- The f32 pattern of +infinity denotes the top element. -/
theorem ofBits_pos_inf : Ideal.ofBits .f32 0x7F800000#32 = (⊤ : EReal) := by
  simp [Ideal.ofBits, Ideal.ieee]

/-- An extended real is below the top in absolute value exactly when it is a real number. -/
theorem abs_lt_top_iff (x : EReal) : max x (-x) < ⊤ ↔ ∃ r : ℝ, x = (r : EReal) := by
  induction x using EReal.rec with
  | bot => simp
  | coe r =>
    refine ⟨fun _ => ⟨r, rfl⟩, fun _ => ?_⟩
    rw [← EReal.coe_neg, max_lt_iff]
    exact ⟨EReal.coe_lt_top r, EReal.coe_lt_top (-r)⟩
  | top => simp

/-- The finiteness test as a program prints it: the comparison "|x| < +infinity" answers 1 exactly when x is a real. -/
theorem cmp_abs_lt_inf (x : EReal) :
    Ideal.cmp .olt (max x (-x)) (Ideal.ofBits .f32 0x7F800000#32) = 1#1 ↔ ∃ r : ℝ, x = (r : EReal) := by
  rw [ofBits_pos_inf, ← abs_lt_top_iff]
  unfold Ideal.cmp
  by_cases h : max x (-x) < ⊤ <;> simp [h]

/-- The sign test as a program prints it: "v >= 0" answers 1 exactly when 0 <= v. -/
theorem cmp_ge_zero (v : EReal) : Ideal.cmp .oge v 0 = 1#1 ↔ 0 ≤ v := by
  unfold Ideal.cmp
  by_cases h : (0 : EReal) ≤ v <;> simp [h]

/-! ## Closure of the reals -/

/-- The coercion of a finite sum of reals is the sum of the coercions. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A sum of products of reals, taken on the extended reals, is the real sum of products. -/
theorem sum_mul_coe {ι : Type*} (s : Finset ι) (a b : ι → ℝ) :
    ∑ k ∈ s, (a k : EReal) * (b k : EReal) = ((∑ k ∈ s, a k * b k : ℝ) : EReal) := by
  rw [coe_sum]
  exact Finset.sum_congr rfl fun k _ => (EReal.coe_mul _ _).symm

/-- The same onto a real accumulator: an entry of a matrix product of real matrices is a real. -/
theorem acc_add_sum_mul_coe {ι : Type*} (s : Finset ι) (acc : ℝ) (a b : ι → ℝ) :
    (acc : EReal) + ∑ k ∈ s, (a k : EReal) * (b k : EReal) = ((acc + ∑ k ∈ s, a k * b k : ℝ) : EReal) := by
  rw [sum_mul_coe, EReal.coe_add]

/-- A quotient of reals by a non-zero real, as a program takes it, is the real quotient. -/
theorem div_coe_coe (a : ℝ) {b : ℝ} (hb : b ≠ 0) : Ideal.div (a : EReal) (b : EReal) = ((a / b : ℝ) : EReal) := by
  rw [Ideal.div_coe hb, ← EReal.coe_mul, mul_one_div]

/-- A maximum of reals is the real maximum. -/
theorem max_coe (a b : ℝ) : max (a : EReal) (b : EReal) = ((max a b : ℝ) : EReal) :=
  (EReal.coe_strictMono.monotone.map_max).symm

/-- The square root of a non-negative real, as a program takes it, is the real square root. -/
theorem sqrt_coe_of_nonneg {r : ℝ} (hr : 0 ≤ r) : Ideal.sqrt (r : EReal) = ((Real.sqrt r : ℝ) : EReal) := by
  show (if r < 0 then (⊥ : EReal) else (Real.sqrt r : EReal)) = _
  rw [if_neg (not_lt.2 hr)]

end Idealize.ShloMosaic.RealOps

end
-- ==== Proof.Softmax.lean ====
/-
  Row softmax with multiplicatively masked, scaled scores, and the attention mix, on the extended reals.

  A row of scores s (one per key position) is turned into weights by subtracting the row's maximum, exponentiating,
  and dividing by the sum of the exponentials. A mix of a row of values v by those weights can be taken in two
  orders: normalise each weight and then sum the products, or sum the products of the unnormalised exponentials and
  divide the total once. On real rows with a non-empty row the two agree (the denominator is a positive real, so
  division distributes over the finite sum); at infinite entries they need not.
-/
import Idealize.ShloMosaic.PureOps.Ideal
import proofs.«119278_j30107720745040_2_alg».proof.Proof.LibRealOps

noncomputable section

namespace Cert.Attn

open Idealize.ShloMosaic

/-- The word of −∞, from which a row maximum is folded. -/
abbrev negInf : EReal := Ideal.ofBits .f32 0xFF800000#32
/-- The word of 1/8 (the reciprocal of the square root of the head dimension 64). -/
abbrev eighth : EReal := Ideal.ofBits .f32 0x3E000000#32

variable {N D : ℕ}

/-- The maximum of a row, folded from −∞. -/
def rowMax (s : Fin N → EReal) : EReal := (Finset.univ : Finset (Fin N)).fold max negInf s
/-- The exponential of a score less the row's maximum. -/
def expo (s : Fin N → EReal) (j : Fin N) : EReal := Ideal.exp (s j - rowMax s)
/-- The sum of a row's exponentials. -/
def denom (s : Fin N → EReal) : EReal := ∑ j : Fin N, expo s j
/-- A softmax weight. -/
def weight (s : Fin N → EReal) (j : Fin N) : EReal := Ideal.div (expo s j) (denom s)
/-- The mix of values by unnormalised exponentials, divided once. -/
def mixLate (s v : Fin N → EReal) : EReal := Ideal.div (∑ j : Fin N, expo s j * v j) (denom s)
/-- The mix of values by normalised weights. -/
def mixEarly (s v : Fin N → EReal) : EReal := ∑ j : Fin N, weight s j * v j
/-- A scaled, multiplicatively masked score: (q · k) · 1/8 · m. -/
def score (q k : Fin D → EReal) (m : EReal) : EReal := ((∑ d : Fin D, q d * k d) * eighth) * m

/-- The word 0x41000000 denotes the real 8. -/
theorem ofBits_eight : Ideal.ofBits .f32 0x41000000#32 = ((8 : ℝ) : EReal) := by
  simp [Ideal.ofBits, Ideal.ieee, -EReal.coe_mul]; norm_num

/-- The word 0x3E000000 denotes the real 1/8. -/
theorem eighth_eq : eighth = ((1 / 8 : ℝ) : EReal) := by
  simp [Ideal.ofBits, Ideal.ieee, -EReal.coe_mul]; norm_num

/-- The word 0xFF800000 denotes −∞. -/
theorem negInf_eq : negInf = (⊥ : EReal) := by
  simp [Ideal.ofBits, Ideal.ieee]

/-- Dividing by 8 is multiplying by 1/8, at every extended real. -/
theorem div_eight (x : EReal) : Ideal.div x (Ideal.ofBits .f32 0x41000000#32) = x * eighth := by
  rw [ofBits_eight, eighth_eq, Ideal.div_coe (by norm_num : (8 : ℝ) ≠ 0)]

/-- The maximum folded from −∞ is not below −∞. -/
theorem max_negInf_rowMax (s : Fin N → EReal) : max negInf (rowMax s) = rowMax s := by
  exact max_eq_right ((Finset.le_fold_max _).2 (Or.inl le_rfl))

/-- A score of real factors is real. -/
theorem score_real (q k : Fin D → EReal) (m : EReal) (hq : ∀ d, ∃ r : ℝ, q d = (r : EReal))
    (hk : ∀ d, ∃ r : ℝ, k d = (r : EReal)) (hm : ∃ r : ℝ, m = (r : EReal)) : ∃ r : ℝ, score q k m = (r : EReal) := by
  choose qr hqr using hq
  choose kr hkr using hk
  obtain ⟨mr, rfl⟩ := hm
  refine ⟨(∑ d : Fin D, qr d * kr d) * (1 / 8) * mr, ?_⟩
  unfold score
  rw [eighth_eq, EReal.coe_mul, EReal.coe_mul, ← RealOps.sum_mul_coe]
  congr 2
  exact Finset.sum_congr rfl fun d _ => by rw [hqr d, hkr d]

/-- The maximum of a non-empty family of reals, folded from −∞, is a real. -/
theorem fold_max_real {ι : Type*} (t : Finset ι) (ht : t.Nonempty) (f : ι → ℝ) :
    ∃ M : ℝ, t.fold max (⊥ : EReal) (fun j => (f j : EReal)) = (M : EReal) := by
  induction ht using Finset.Nonempty.cons_induction with
  | singleton a => exact ⟨f a, by rw [Finset.fold_singleton, max_eq_left bot_le]⟩
  | cons a t ha _ ih =>
    obtain ⟨M, hM⟩ := ih
    exact ⟨max (f a) M, by rw [Finset.fold_cons, hM, RealOps.max_coe]⟩

/-- On a non-empty row of real scores and real values the two orders of the mix agree. -/
theorem mixEarly_eq_mixLate (hN : 0 < N) (s v : Fin N → EReal) (hs : ∀ j, ∃ r : ℝ, s j = (r : EReal))
    (hv : ∀ j, ∃ r : ℝ, v j = (r : EReal)) : mixEarly s v = mixLate s v := by
  choose sr hsr using hs
  choose vr hvr using hv
  obtain rfl : s = fun j => (sr j : EReal) := funext hsr
  obtain rfl : v = fun j => (vr j : EReal) := funext hvr
  haveI : Nonempty (Fin N) := ⟨⟨0, hN⟩⟩
  -- the row maximum is a real M
  obtain ⟨M, hM⟩ : ∃ M : ℝ, rowMax (fun j => (sr j : EReal)) = (M : EReal) := by
    unfold rowMax
    rw [negInf_eq]
    exact fold_max_real Finset.univ Finset.univ_nonempty sr
  -- each exponential is a real
  have hexpo : ∀ j, expo (fun j => (sr j : EReal)) j = ((Real.exp (sr j - M) : ℝ) : EReal) := by
    intro j
    unfold expo
    rw [hM, ← EReal.coe_sub, Ideal.exp_coe]
  -- the denominator is a positive real L
  set L : ℝ := ∑ j : Fin N, Real.exp (sr j - M) with hL
  have hLpos : 0 < L := Finset.sum_pos (fun j _ => Real.exp_pos _) Finset.univ_nonempty
  have hden : denom (fun j => (sr j : EReal)) = (L : EReal) := by
    unfold denom
    rw [hL, RealOps.coe_sum]
    exact Finset.sum_congr rfl fun j _ => hexpo j
  have hL0 : L ≠ 0 := ne_of_gt hLpos
  -- both sides are coercions of real expressions
  have hearly : mixEarly (fun j => (sr j : EReal)) (fun j => (vr j : EReal))
      = ((∑ j : Fin N, Real.exp (sr j - M) / L * vr j : ℝ) : EReal) := by
    unfold mixEarly weight
    rw [← RealOps.sum_mul_coe]
    exact Finset.sum_congr rfl fun j _ => by rw [hexpo j, hden, RealOps.div_coe_coe _ hL0]
  have hlate : mixLate (fun j => (sr j : EReal)) (fun j => (vr j : EReal))
      = (((∑ j : Fin N, Real.exp (sr j - M) * vr j) / L : ℝ) : EReal) := by
    unfold mixLate
    rw [hden, ← RealOps.div_coe_coe _ hL0, ← RealOps.sum_mul_coe]
    congr 1
    exact Finset.sum_congr rfl fun j _ => by rw [hexpo j]
  rw [hearly, hlate, Finset.sum_div]
  congr 1
  exact Finset.sum_congr rfl fun j _ => div_mul_eq_mul_div _ _ _

end Cert.Attn

end
-- ==== Proof.LibDot.lean ====
/-
  A matrix product read at an index, on the extended reals.

  For a rows × contraction by contraction × columns product — the dimension numbers that contract the left operand's
  second axis with the right operand's first, with no batch axis — the entry at (i, j) of the host's `dot_general`,
  and of a `tpu.matmul` accumulated into the zero splat, is the plain sum over the contraction coordinate k of
  l (i, k) · r (k, j). The sum over the product's own contraction index is re-indexed through the bijection between a
  one-axis contraction index and its coordinate; the operand indices are computed from the dimension numbers.
  Nothing here needs finiteness: only that the sum is re-indexed.
-/
import Idealize.ShloMosaic.Lib.ValueIdx
import Idealize.ShloMosaic.PureOps.Ideal.Laws

noncomputable section

namespace Cert.LibDot

open Idealize.ShloMosaic Idealize.ShloMosaic.ValueIdx

variable {M K N : Nat}

/-- The contraction of row `y 0` of `l` with column `y 1` of `r`: the sum over the product's contraction index is
    the sum over the one contracted coordinate. -/
theorem sum_plain (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (l : (⟨2, ![M, K]⟩ : Shape).Idx → EReal) (r : (⟨2, ![K, N]⟩ : Shape).Idx → EReal) (y : (⟨2, ![M, N]⟩ : Shape).Idx) :
    ∑ q : d.contr.Idx, l (d.lhsIdx y q) * r (d.rhsIdx y q) = ∑ k : Fin K, l (ix2 (y 0) k) * r (ix2 k (y 1)) := by
  obtain ⟨lc, rc, ln, rn, lb, rb, wf⟩ := d
  dsimp only at hlc hrc hln hrn hlb hrb
  subst hlc hrc hln hrn hlb hrb
  rw [← Equiv.sum_comp (contrEquiv1 (⟨[1], [0], [0], [1], [], [], wf⟩ : DotDims ⟨2, ![M, K]⟩ ⟨2, ![K, N]⟩ ⟨2, ![M, N]⟩) K rfl rfl).symm]
  refine Finset.sum_congr rfl fun k _ => ?_
  have hk := contrEquiv1_symm_val (⟨[1], [0], [0], [1], [], [], wf⟩ : DotDims ⟨2, ![M, K]⟩ ⟨2, ![K, N]⟩ ⟨2, ![M, N]⟩) K rfl rfl k
  have el : DotDims.lhsIdx (⟨[1], [0], [0], [1], [], [], wf⟩ : DotDims ⟨2, ![M, K]⟩ ⟨2, ![K, N]⟩ ⟨2, ![M, N]⟩) y
      ((contrEquiv1 (⟨[1], [0], [0], [1], [], [], wf⟩ : DotDims ⟨2, ![M, K]⟩ ⟨2, ![K, N]⟩ ⟨2, ![M, N]⟩) K rfl rfl).symm k)
      = ix2 (y 0) k := funext fun a => Fin.ext (by
    match a with
    | ⟨0, _⟩ =>
      unfold DotDims.lhsIdx
      rw [dif_neg (by simp), dif_pos (by simp)]
      rfl
    | ⟨1, _⟩ => exact (DotDims.lhsIdx_val_of_single _ rfl y _).trans hk)
  have er : DotDims.rhsIdx (⟨[1], [0], [0], [1], [], [], wf⟩ : DotDims ⟨2, ![M, K]⟩ ⟨2, ![K, N]⟩ ⟨2, ![M, N]⟩) y
      ((contrEquiv1 (⟨[1], [0], [0], [1], [], [], wf⟩ : DotDims ⟨2, ![M, K]⟩ ⟨2, ![K, N]⟩ ⟨2, ![M, N]⟩) K rfl rfl).symm k)
      = ix2 k (y 1) := funext fun a => Fin.ext (by
    match a with
    | ⟨0, _⟩ => exact (DotDims.rhsIdx_val_of_single _ rfl y _).trans hk
    | ⟨1, _⟩ =>
      unfold DotDims.rhsIdx
      rw [dif_neg (by simp), dif_pos (by simp)]
      rfl)
  rw [el, er]
  rfl

variable {φ₁ φ₂ : FTy}

/-- The host's `dot_general` of those dimension numbers, at an index: the sum over the contracted coordinate. -/
theorem dotGeneral_plain_apply (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (sched : HostSchedule)
    (l : FVec Ideal ⟨2, ![M, K]⟩ φ₁) (r : FVec Ideal ⟨2, ![K, N]⟩ φ₂) (y : (⟨2, ![M, N]⟩ : Shape).Idx) :
    FloatOps.dotGeneral d prec sched l r y = ∑ k : Fin K, l (ix2 (y 0) k) * r (ix2 k (y 1)) := by
  rw [Ideal.dotGeneral_apply]
  exact sum_plain d hlc hrc hln hrn hlb hrb l r y

/-- A `tpu.matmul` of those dimension numbers into the zero accumulator, at an index: the same sum. -/
theorem matmul_zero_plain_apply (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision)
    (l : FVec Ideal ⟨2, ![M, K]⟩ φ₁) (r : FVec Ideal ⟨2, ![K, N]⟩ φ₂) (y : (⟨2, ![M, N]⟩ : Shape).Idx) :
    FloatOps.matmul d prec l r (constant ⟨2, ![M, N]⟩ .f32 0x00000000#32) y
      = ∑ k : Fin K, l (ix2 (y 0) k) * r (ix2 k (y 1)) := by
  rw [Ideal.matmul_constant_zero_apply]
  exact sum_plain d hlc hrc hln hrn hlb hrb l r y

end Cert.LibDot

end
-- ==== Proof.LibDotT.lean ====
/-
  A matrix product with the transpose of the right factor, read at an index, on the extended reals.

  For a rows × contraction by columns × contraction product — the dimension numbers that contract the left operand's
  second axis with the right operand's SECOND axis, with no batch axis — the entry at (i, j) of the host's
  `dot_general`, and of a `tpu.matmul` accumulated into the zero splat, is the plain sum over the contraction
  coordinate k of l (i, k) · r (j, k): row i of the left operand against row j of the right one. The sum over the
  product's own contraction index is re-indexed through the bijection between a one-axis contraction index and its
  coordinate; the operand indices are computed from the dimension numbers: the left operand reads the result's first
  coordinate on its first axis, the right operand reads the result's second coordinate on its first axis, and both
  read the contraction coordinate on their second axis. Nothing here needs finiteness: only that the sum is re-indexed.
-/
import Idealize.ShloMosaic.Lib.ValueIdx
import Idealize.ShloMosaic.PureOps.Ideal.Laws

noncomputable section

namespace Cert.LibDotT

open Idealize.ShloMosaic Idealize.ShloMosaic.ValueIdx

variable {M K N : Nat}

/-- The contraction of row `y 0` of `l` with row `y 1` of `r`: the sum over the product's contraction index is
    the sum over the one contracted coordinate. -/
theorem sum_transposed (d : DotDims ⟨2, ![M, K]⟩ ⟨2, ![N, K]⟩ ⟨2, ![M, N]⟩)
    (hlc : d.lhsContracting = [1]) (hrc : d.rhsContracting = [1]) (hln : d.lhsNonContracting = [0])
    (hrn : d.rhsNonContracting = [0]) (hlb : d.lhsBatch = []) (hrb : d.rhsBatch = [])
    (l : (⟨2, ![M, K]⟩ : Shape).Idx → EReal) (r : (⟨2, ![N, K]⟩ : Shape).Idx → EReal) (y : (⟨2, ![M, N]⟩ : Shape).Idx) :
    ∑ q : d.contr.Idx, l (d.lhsIdx y q) * r (d.rhsIdx y q) = ∑ k : Fin K, l (ix2 (y 0) k) * r (ix2 (y 1) k) := by
  obtain ⟨lc, rc, ln, rn, lb, rb, wf⟩ := d
  dsimp only at hlc hrc hln hrn hlb hrb
  subst hlc hrc hln hrn hlb hrb
  rw [← Equiv.sum_comp (contrEquiv1 (⟨[1], [1], [0], [0], [], [], wf⟩ : DotDims ⟨2, ![M, K]⟩ ⟨2, ![N, K]⟩ ⟨2, ![M, N]⟩) K rfl rfl).symm]
  refine Finset.sum_congr rfl fun k _ => ?_
  have hk := contrEquiv1_symm_val (⟨[1], [1], [0], [0], [], [], wf⟩ : DotDims ⟨2, ![M, K]⟩ ⟨2, ![N, K]⟩ ⟨2, ![M, N]⟩) K rfl rfl k
  have el : DotDims.lhsIdx (⟨[1], [1], [0], [0], [], [], wf⟩ : DotDims ⟨2, ![M, K]⟩ ⟨2, ![N, K]⟩ ⟨2, ![M, N]⟩) y
      ((contrEquiv1 (⟨[1], [1], [0], [0], [], [], wf⟩ : DotDims ⟨2, ![M, K]⟩ ⟨2, ![N, K]⟩ ⟨2, ![M, N]⟩) K rfl rfl).symm k)
      = ix2 (y 0) k := funext fun a => Fin.ext (by
    match a with
    | ⟨0, _⟩ =>
      unfold DotDims.lhsIdx
      rw [dif_neg (by simp), dif_pos (by simp)]
      rfl
    | ⟨1, _⟩ => exact (DotDims.lhsIdx_val_of_single _ rfl y _).trans hk)
  have er : DotDims.rhsIdx (⟨[1], [1], [0], [0], [], [], wf⟩ : DotDims ⟨2, ![M, K]⟩ ⟨2, ![N, K]⟩ ⟨2, ![M, N]⟩) y
      ((contrEquiv1 (⟨[1], [1], [0], [0], [], [], wf⟩ : DotDims ⟨2, ![M, K]⟩ ⟨2, ![N, K]⟩ ⟨2, ![M, N]⟩) K rfl rfl).symm k)
      = ix2 (y 1) k := funext fun a => Fin.ext (by
    match a with
    | ⟨0, _⟩ =>
      unfold DotDims.rhsIdx
      rw [dif_neg (by simp), dif_pos (by simp)]
      rfl
    | ⟨1, _⟩ => exact (DotDims.rhsIdx_val_of_single _ rfl y _).trans hk)
  rw [el, er]
  rfl

variable {φ₁ φ₂ : FTy}

/-- The host's `dot_general` of those dimension numbers, at an index: the sum over the contracted coordinate. -/
theorem dotGeneral_transposed_apply (d : DotDims ⟨2, ![M, K]⟩ ⟨2, ![N, K]⟩ ⟨2, ![M, N]⟩)
    (hlc : d.lhsContracting = [1]) (hrc : d.rhsContracting = [1]) (hln : d.lhsNonContracting = [0])
    (hrn : d.rhsNonContracting = [0]) (hlb : d.lhsBatch = []) (hrb : d.rhsBatch = [])
    (prec : Option ContractPrecision) (sched : HostSchedule)
    (l : FVec Ideal ⟨2, ![M, K]⟩ φ₁) (r : FVec Ideal ⟨2, ![N, K]⟩ φ₂) (y : (⟨2, ![M, N]⟩ : Shape).Idx) :
    FloatOps.dotGeneral d prec sched l r y = ∑ k : Fin K, l (ix2 (y 0) k) * r (ix2 (y 1) k) := by
  rw [Ideal.dotGeneral_apply]
  exact sum_transposed d hlc hrc hln hrn hlb hrb l r y

/-- A `tpu.matmul` of those dimension numbers into the zero accumulator, at an index: the same sum. -/
theorem matmul_zero_transposed_apply (d : DotDims ⟨2, ![M, K]⟩ ⟨2, ![N, K]⟩ ⟨2, ![M, N]⟩)
    (hlc : d.lhsContracting = [1]) (hrc : d.rhsContracting = [1]) (hln : d.lhsNonContracting = [0])
    (hrn : d.rhsNonContracting = [0]) (hlb : d.lhsBatch = []) (hrb : d.rhsBatch = [])
    (prec : Option ContractPrecision)
    (l : FVec Ideal ⟨2, ![M, K]⟩ φ₁) (r : FVec Ideal ⟨2, ![N, K]⟩ φ₂) (y : (⟨2, ![M, N]⟩ : Shape).Idx) :
    FloatOps.matmul d prec l r (constant ⟨2, ![M, N]⟩ .f32 0x00000000#32) y
      = ∑ k : Fin K, l (ix2 (y 0) k) * r (ix2 (y 1) k) := by
  rw [Ideal.matmul_constant_zero_apply]
  exact sum_transposed d hlc hrc hln hrn hlb hrb l r y

end Cert.LibDotT

end
-- ==== Proof.LibColumn.lean ====
/-
  A column of per-row values laid beside a matrix, read at an index.

  A reduction over a matrix's second axis with the axis kept ("keepdims") leaves one value per row, stored as a
  vector of length a, re-cast as an a × 1 column, and then broadcast across the b columns of the matrix it is
  combined with.  At entry (p, c) each of these re-layings reads the one value of row p: the cast keeps the row-major
  position, and the broadcast reads a unit axis at coordinate 0 whatever the column.
-/
import Idealize.ShloMosaic.Lib.Pipeline.Value
import Idealize.ShloMosaic.Lib.ValueIdx

namespace Cert.LibColumn

open Idealize.ShloMosaic Idealize.ShloMosaic.ValueIdx

variable {α : Type}

/-- A vector of length `a` cast to an `a × 1` column reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `a × 1` column cast to itself is itself. -/
theorem shapeCast_a1_a1_apply {a : ℕ} (x : (⟨2, ![a, 1]⟩ : Shape).Idx → α) (h : (⟨2, ![a, 1]⟩ : Shape).ShapeCasts ⟨2, ![a, 1]⟩)
    (j : (⟨2, ![a, 1]⟩ : Shape).Idx) : shapeCast ⟨2, ![a, 1]⟩ x h j = x j := by
  rw [shapeCast_self]

/-- An `a × 1` column broadcast across `b` columns reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show 0 = if (1 : ℕ) = 1 then 0 else c.val
    rw [if_pos rfl]

end Cert.LibColumn
-- ==== Proof.KBlock.lean ====
/-
  What the kernel body computes from its four loaded blocks, read at an index.

  At a grid point the body holds a 512-row block of queries, the whole 2048-row key and value matrices of one
  (batch, head) pair, and the 512 × 2048 block of the mask. For query row r of the block it forms the row of scores
  s(j) = (q(r,·) · k(j,·)) · 1/8 · mask(r, j), subtracts the row's maximum, exponentiates, sums the row, and stores
  exp / sum (the attention block) and (Σ_j exp(j) · v(j, e)) / sum (the context block).
-/
import proofs.«119278_j30107720745040_2_alg».proof.Proof.Gen.KernelIdeal.Skeleton
import proofs.«119278_j30107720745040_2_alg».proof.Proof.Softmax
import proofs.«119278_j30107720745040_2_alg».proof.Proof.LibDot
import proofs.«119278_j30107720745040_2_alg».proof.Proof.LibDotT
import proofs.«119278_j30107720745040_2_alg».proof.Proof.LibColumn
import Idealize.ShloMosaic.Lib.ValueIdx
import Idealize.ShloMosaic.Lib.ValueLayout
import Idealize.ShloMosaic.Lib.Pipeline.Value
import Idealize.ShloMosaic.PureOps.Ideal.Laws

noncomputable section

namespace Cert.Attn.Block

open Idealize.ShloMosaic Idealize.ShloMosaic.ValueIdx Cert.KernelIdeal Cert.KernelIdeal.Gen Cert.Attn

/-- The row of scaled, masked scores of query row r of the block. -/
def brow (x0 : Vec Ideal S1x512x64 .f32) (x1 : Vec Ideal S1x2048x64 .f32) (x3 : Vec Ideal S1x512x2048 .f32)
    (r : Fin 512) : Fin 2048 → EReal :=
  fun j => score (fun d : Fin 64 => x0 (ix3 (0 : Fin 1) r d)) (fun d : Fin 64 => x1 (ix3 (0 : Fin 1) j d))
    (x3 (ix3 (0 : Fin 1) r j))

/-- The block of scores as the body forms it: the product of the query block with the transposed key matrix, times
    the splat of 1/8, times the mask block. -/
def scores (x0 : Vec Ideal S1x512x64 .f32) (x1 : Vec Ideal S1x2048x64 .f32) (x3 : Vec Ideal S1x512x2048 .f32) :
    FVec Ideal S512x2048 .f32 :=
  mulf (mulf (matmul dot_S512x64_S2048x64_S512x2048_1_1_0_0_n_n none
      (truncf .bf16 (shapeCast S512x64 x0 shapeCasts_S1x512x64_S512x64) bitsLt_bf16_f32)
      (truncf .bf16 (shapeCast S2048x64 x1 shapeCasts_S1x2048x64_S2048x64) bitsLt_bf16_f32)
      (constant S512x2048 .f32 0x00000000#32))
    (broadcast S512x2048 (Scalar.ofBits .f32 0x3E000000#32)))
    (shapeCast S512x2048 x3 shapeCasts_S1x512x2048_S512x2048)

/-- An entry of the block of scores is the row's score. -/
theorem scores_apply (x0 : Vec Ideal S1x512x64 .f32) (x1 : Vec Ideal S1x2048x64 .f32) (x3 : Vec Ideal S1x512x2048 .f32)
    (r : Fin 512) (j : Fin 2048) : scores x0 x1 x3 (ix2 r j) = brow x0 x1 x3 r j := by
  unfold scores brow score
  rw [mulf_apply, mulf_apply, broadcast_apply, shapeCast_1ab_ab_apply]
  refine congrArg (fun z => z * eighth * x3 (ix3 (0 : Fin 1) r j)) ?_
  refine (Cert.LibDotT.matmul_zero_transposed_apply dot_S512x64_S2048x64_S512x2048_1_1_0_0_n_n rfl rfl rfl rfl rfl rfl none _ _
    (ix2 r j)).trans ?_
  refine Finset.sum_congr rfl fun d _ => ?_
  show shapeCast S512x64 x0 shapeCasts_S1x512x64_S512x64 (ix2 r d) * shapeCast S2048x64 x1 shapeCasts_S1x2048x64_S2048x64 (ix2 j d) = _
  rw [shapeCast_1ab_ab_apply, shapeCast_1ab_ab_apply]

/-- The index of the score block whose reduced index is row r and whose reduced-away coordinate is k is (r, k). -/
theorem lift_row (h : S512x2048.Reduces [1] S512) (r : Fin 512) (k : Fin (S512x2048.size 1)) :
    h.lift (ix1 r) k = ix2 r (⟨k.val, k.isLt⟩ : Fin 2048) := by
  funext c; apply Fin.ext
  fin_cases c <;> rfl

/-- The maximum over the second axis of a 512 × 2048 block, at row r, is the row's maximum folded from −∞. -/
theorem rowmax_apply (src : FVec Ideal S512x2048 .f32) (hφ : FKind.Formats .f32)
    (hacc : (0xFF800000#32 : BitVec 32) = FKind.maximumf.neutral .f32 hφ) (r : Fin 512) :
    multiReduction .maximumf [1] S512 src 0xFF800000#32 reduces_S512x2048_S512 hφ hacc (ix1 r)
      = rowMax (fun j : Fin 2048 => src (ix2 r j)) := by
  rw [Ideal.multiReduction_maximumf_single]
  unfold rowMax
  have hf : (src ∘ reduces_S512x2048_S512.lift (ix1 r)) = fun k : Fin 2048 => src (ix2 r k) :=
    funext fun k => congrArg src (lift_row _ r k)
  exact congrArg (fun f => Finset.fold max negInf f (Finset.univ : Finset (Fin 2048))) hf

/-- The sum over the second axis of a 512 × 2048 block, at row r, is the row's sum. -/
theorem rowsum_apply (src : FVec Ideal S512x2048 .f32) (hφ : FKind.Formats .f32)
    (hacc : (0x00000000#32 : BitVec 32) = FKind.add.neutral .f32 hφ) (r : Fin 512) :
    multiReduction .add [1] S512 src 0x00000000#32 reduces_S512x2048_S512 hφ hacc (ix1 r)
      = ∑ j : Fin 2048, src (ix2 r j) := by
  rw [Ideal.multiReduction_add_single]
  exact Finset.sum_congr rfl fun k _ => congrArg src (lift_row _ r k)

/-- The body's exponentials: the exponential of the scores less the column of row maxima laid across the block. -/
theorem pay1_eq (x0 : Vec Ideal S1x512x64 .f32) (x1 : Vec Ideal S1x2048x64 .f32) (x3 : Vec Ideal S1x512x2048 .f32) :
    k0_pay1 (F := Ideal) x0 x1 x3
      = exp (subf (scores x0 x1 x3) (broadcastTo S512x2048 (shapeCast S512x1
          (multiReduction .maximumf [1] S512 (scores x0 x1 x3) 0xFF800000#32 reduces_S512x2048_S512 (.inl rfl) rfl)
          shapeCasts_S512_S512x1) broadcasts_S512x1_S512x2048)) := rfl

/-- An entry of the body's exponentials is the exponential of the row's score less the row's maximum. -/
theorem pay1_apply (x0 : Vec Ideal S1x512x64 .f32) (x1 : Vec Ideal S1x2048x64 .f32) (x3 : Vec Ideal S1x512x2048 .f32)
    (r : Fin 512) (j : Fin 2048) : k0_pay1 (F := Ideal) x0 x1 x3 (ix2 r j) = expo (brow x0 x1 x3 r) j := by
  rw [pay1_eq]
  show Ideal.exp (scores x0 x1 x3 (ix2 r j) - broadcastTo S512x2048 (shapeCast S512x1 _ shapeCasts_S512_S512x1)
    broadcasts_S512x1_S512x2048 (ix2 r j)) = _
  unfold expo
  rw [scores_apply, Cert.LibColumn.broadcastTo_a1_ab_apply, Cert.LibColumn.shapeCast_a_a1_apply]
  refine congrArg (fun z => Ideal.exp (brow x0 x1 x3 r j - z)) ?_
  refine (rowmax_apply _ _ _ r).trans ?_
  exact congrArg rowMax (funext fun j' => scores_apply x0 x1 x3 r j')

/-- An entry of the body's column of row sums is the sum of the row's exponentials. -/
theorem pay2_apply (x0 : Vec Ideal S1x512x64 .f32) (x1 : Vec Ideal S1x2048x64 .f32) (x3 : Vec Ideal S1x512x2048 .f32)
    (r : Fin 512) (u : Fin 1) : k0_pay2 (F := Ideal) x0 x1 x3 (ix2 r u) = denom (brow x0 x1 x3 r) := by
  unfold k0_pay2
  rw [Cert.LibColumn.shapeCast_a_a1_apply]
  refine (rowsum_apply _ _ _ r).trans ?_
  unfold denom
  exact Finset.sum_congr rfl fun j _ => pay1_apply x0 x1 x3 r j

/-- An entry of the attention block the body stores is the softmax weight of the row's scores. -/
theorem pay3_apply (x0 : Vec Ideal S1x512x64 .f32) (x1 : Vec Ideal S1x2048x64 .f32) (x3 : Vec Ideal S1x512x2048 .f32)
    (z : Fin 1) (r : Fin 512) (j : Fin 2048) :
    k0_pay3 (F := Ideal) x0 x1 x3 (ix3 z r j) = weight (brow x0 x1 x3 r) j := by
  unfold k0_pay3
  rw [shapeCast_ab_1ab_apply, divf_apply, Cert.LibColumn.broadcastTo_a1_ab_apply, pay1_apply, pay2_apply]
  rfl

/-- An entry of the context block the body stores is the mix of a value column by the row's exponentials, divided
    once by the row's sum. -/
theorem pay4_apply (x0 : Vec Ideal S1x512x64 .f32) (x1 x2 : Vec Ideal S1x2048x64 .f32) (x3 : Vec Ideal S1x512x2048 .f32)
    (z : Fin 1) (r : Fin 512) (e : Fin 64) :
    k0_pay4 (F := Ideal) x0 x1 x2 x3 (ix3 z r e)
      = mixLate (brow x0 x1 x3 r) (fun j : Fin 2048 => x2 (ix3 (0 : Fin 1) j e)) := by
  unfold k0_pay4
  rw [shapeCast_ab_1ab_apply, divf_apply, Cert.LibColumn.broadcastTo_a1_ab_apply, pay2_apply]
  unfold mixLate
  refine congrArg (fun y => Ideal.div y (denom (brow x0 x1 x3 r))) ?_
  refine (Cert.LibDot.matmul_zero_plain_apply dot_S512x2048_S2048x64_S512x64_1_0_0_1_n_n rfl rfl rfl rfl rfl rfl none _ _
    (ix2 r e)).trans ?_
  refine Finset.sum_congr rfl fun j _ => ?_
  show k0_pay1 (F := Ideal) x0 x1 x3 (ix2 r j) * shapeCast S2048x64 x2 shapeCasts_S1x2048x64_S2048x64 (ix2 j e) = _
  rw [pay1_apply, shapeCast_1ab_ab_apply]

end Cert.Attn.Block

end
-- ==== Proof.KPoint.lean ====
/-
  The two result arrays of the kernel region as functions of the three-axis arrays it reads, and what one grid point
  contributes to them.

  The region reads Q, K, V of shape 32 × 2048 × 64 and a mask of shape 32 × 2048 × 2048 (the leading axis is the
  batch and head merged). Its attention result at (a, b, c) is the softmax weight c of the row of scores of query row
  b of slab a, and its context result at (a, b, e) is the mix of column e of slab a's values by that row's
  exponentials, divided once by their sum. A grid point holds rows B·512 … B·512 + 511 of slab A of the queries and the
  mask and all of slab A of the keys and values; what the body computes from those blocks at a block index is the
  array function at the corresponding array index.
-/
import proofs.«119278_j30107720745040_2_alg».proof.Proof.KBlock

noncomputable section

namespace Cert.Attn.Block

open Idealize.ShloMosaic Idealize.ShloMosaic.ValueIdx Cert.KernelIdeal Cert.KernelIdeal.Gen Cert.Attn

/-- The row of scores of query row b of slab a. -/
def row3 (Q K : S32x2048x64.Idx → EReal) (M : S32x2048x2048.Idx → EReal) (a : Fin 32) (b : Fin 2048) :
    Fin 2048 → EReal :=
  fun j => score (fun d : Fin 64 => Q (ix3 a b d)) (fun d : Fin 64 => K (ix3 a j d)) (M (ix3 a b j))

/-- The attention array. -/
def attn3 (Q K : S32x2048x64.Idx → EReal) (M : S32x2048x2048.Idx → EReal) : S32x2048x2048.Idx → EReal :=
  fun i => weight (row3 Q K M (i 0) (i 1)) (i 2)

/-- The context array. -/
def ctx3 (Q K V : S32x2048x64.Idx → EReal) (M : S32x2048x2048.Idx → EReal) : S32x2048x64.Idx → EReal :=
  fun i => mixLate (row3 Q K M (i 0) (i 1)) (fun j : Fin 2048 => V (ix3 (i 0) j (i 2)))

section Point

variable (Q K V : S32x2048x64.Idx → EReal) (M : S32x2048x2048.Idx → EReal)
  (x0 : Vec Ideal S1x512x64 .f32) (x1 x2 : Vec Ideal S1x2048x64 .f32) (x3 : Vec Ideal S1x512x2048 .f32)
  (e0 : S1x512x64.Idx → S32x2048x64.Idx) (e1 e2 : S1x2048x64.Idx → S32x2048x64.Idx)
  (e3 : S1x512x2048.Idx → S32x2048x2048.Idx)
  (hx0 : x0 = fun y => Q (e0 y)) (hx1 : x1 = fun y => K (e1 y)) (hx2 : x2 = fun y => V (e2 y))
  (hx3 : x3 = fun y => M (e3 y))
  (A B : ℕ)
  (he0 : ∀ y, (e0 y 0).val = A ∧ (e0 y 1).val = B * 512 + (y 1).val ∧ (e0 y 2).val = (y 2).val)
  (he1 : ∀ y, (e1 y 0).val = A ∧ (e1 y 1).val = (y 1).val ∧ (e1 y 2).val = (y 2).val)
  (he2 : ∀ y, (e2 y 0).val = A ∧ (e2 y 1).val = (y 1).val ∧ (e2 y 2).val = (y 2).val)
  (he3 : ∀ y, (e3 y 0).val = A ∧ (e3 y 1).val = B * 512 + (y 1).val ∧ (e3 y 2).val = (y 2).val)

include hx0 hx1 hx3 he0 he1 he3 in
/-- The block's row r of scores is the array's row B·512 + r of slab A. -/
theorem brow_eq (r : Fin 512) (a : Fin 32) (b : Fin 2048) (ha : a.val = A) (hb : b.val = B * 512 + r.val) :
    brow x0 x1 x3 r = row3 Q K M a b := by
  funext j
  unfold brow row3
  have q0 : ∀ d : Fin 64, x0 (ix3 (0 : Fin 1) r d) = Q (ix3 a b d) := fun d => by
    rw [hx0]
    refine congrArg Q (funext fun ax => Fin.ext ?_)
    obtain ⟨f0, f1, f2⟩ := he0 (ix3 (0 : Fin 1) r d)
    match ax with
    | ⟨0, _⟩ => exact f0.trans ha.symm
    | ⟨1, _⟩ => exact f1.trans hb.symm
    | ⟨2, _⟩ => exact f2
  have q1 : ∀ d : Fin 64, x1 (ix3 (0 : Fin 1) j d) = K (ix3 a j d) := fun d => by
    rw [hx1]
    refine congrArg K (funext fun ax => Fin.ext ?_)
    obtain ⟨f0, f1, f2⟩ := he1 (ix3 (0 : Fin 1) j d)
    match ax with
    | ⟨0, _⟩ => exact f0.trans ha.symm
    | ⟨1, _⟩ => exact f1
    | ⟨2, _⟩ => exact f2
  have q3 : x3 (ix3 (0 : Fin 1) r j) = M (ix3 a b j) := by
    rw [hx3]
    refine congrArg M (funext fun ax => Fin.ext ?_)
    obtain ⟨f0, f1, f2⟩ := he3 (ix3 (0 : Fin 1) r j)
    match ax with
    | ⟨0, _⟩ => exact f0.trans ha.symm
    | ⟨1, _⟩ => exact f1.trans hb.symm
    | ⟨2, _⟩ => exact f2
  rw [q3, funext q0, funext q1]

include hx0 hx1 hx3 he0 he1 he3 in
/-- The attention block at a block index is the attention array at the corresponding array index. -/
theorem attn_point (y : S1x512x2048.Idx) (i : S32x2048x2048.Idx)
    (hi : (i 0).val = A ∧ (i 1).val = B * 512 + (y 1).val ∧ (i 2).val = (y 2).val) :
    k0_pay3 (F := Ideal) x0 x1 x3 y = attn3 Q K M i := by
  obtain ⟨z, r, j, rfl⟩ : ∃ (z : Fin 1) (r : Fin 512) (j : Fin 2048), y = ix3 z r j := ⟨y 0, y 1, y 2, eq_ix3 y⟩
  obtain ⟨a, b, c, rfl⟩ : ∃ (a : Fin 32) (b : Fin 2048) (c : Fin 2048), i = ix3 a b c := ⟨i 0, i 1, i 2, eq_ix3 i⟩
  obtain ⟨h0, h1, h2⟩ := hi
  obtain rfl : c = j := Fin.ext h2
  rw [pay3_apply]
  show weight (brow x0 x1 x3 r) c = weight (row3 Q K M a b) c
  rw [brow_eq Q K M x0 x1 x3 e0 e1 e3 hx0 hx1 hx3 A B he0 he1 he3 r a b h0 h1]

include hx0 hx1 hx2 hx3 he0 he1 he2 he3 in
/-- The context block at a block index is the context array at the corresponding array index. -/
theorem ctx_point (y : S1x512x64.Idx) (i : S32x2048x64.Idx)
    (hi : (i 0).val = A ∧ (i 1).val = B * 512 + (y 1).val ∧ (i 2).val = (y 2).val) :
    k0_pay4 (F := Ideal) x0 x1 x2 x3 y = ctx3 Q K V M i := by
  obtain ⟨z, r, e, rfl⟩ : ∃ (z : Fin 1) (r : Fin 512) (e : Fin 64), y = ix3 z r e := ⟨y 0, y 1, y 2, eq_ix3 y⟩
  obtain ⟨a, b, c, rfl⟩ : ∃ (a : Fin 32) (b : Fin 2048) (c : Fin 64), i = ix3 a b c := ⟨i 0, i 1, i 2, eq_ix3 i⟩
  obtain ⟨h0, h1, h2⟩ := hi
  obtain rfl : c = e := Fin.ext h2
  rw [pay4_apply]
  show mixLate (brow x0 x1 x3 r) (fun j : Fin 2048 => x2 (ix3 (0 : Fin 1) j c))
    = mixLate (row3 Q K M a b) (fun j : Fin 2048 => V (ix3 a j c))
  rw [brow_eq Q K M x0 x1 x3 e0 e1 e3 hx0 hx1 hx3 A B he0 he1 he3 r a b h0 h1]
  refine congrArg (mixLate (row3 Q K M a b)) (funext fun j => ?_)
  rw [hx2]
  refine congrArg V (funext fun ax => Fin.ext ?_)
  obtain ⟨f0, f1, f2⟩ := he2 (ix3 (0 : Fin 1) j c)
  match ax with
  | ⟨0, _⟩ => exact f0.trans h0.symm
  | ⟨1, _⟩ => exact f1
  | ⟨2, _⟩ => exact f2

end Point

end Cert.Attn.Block

end
-- ==== Proof.KFinal.lean ====
/-
  The two arrays the kernel region leaves, as whole-array functions of the arrays it reads.

  The grid has 32 × 4 points; point (A, B) holds rows B·512 … B·512 + 511 of slab A of the queries and the mask, all of
  slab A of the keys and values, and writes back block (A, B) of each result. What a point writes back is the block of
  the attention (context) array at its block index, and the 128 blocks tile each result array, so after the run each
  result array is the attention (context) array everywhere.
-/
import proofs.«119278_j30107720745040_2_alg».proof.Proof.Gen.KernelIdeal.Frame
import proofs.«119278_j30107720745040_2_alg».proof.Proof.KPoint
import Idealize.ShloMosaic.Lib.Pipeline.Value

noncomputable section

namespace Cert.Attn.Final

open Cert.KernelIdeal Cert.KernelIdeal.Gen Idealize.ShloMosaic Idealize.ShloMosaic.TcCoe Idealize.SL.Sem
open Idealize.ShloMosaic.Pipeline (Dat)
open Cert.Attn Cert.Attn.Block

variable (m : (ℓ : Loc nD τ sig) → Buf (Elt Ideal) ℓ) (ρ : Dev nD → PrngReg)

theorem hz : (![0, 0, 0] : Fin 3 → Nat) = fun _ => 0 := funext fun a => by fin_cases a <;> rfl

/-- The printed index maps, decided over the grid: the query, mask and both result windows move together, block
    (A, B, 0); the key and value windows sit at block (A, 0, 0); A < 32 and B < 4. -/
theorem idx_facts : ∀ t : Fin cfg0.N,
    win0_0.index t (0 : Fin 3) = win0_5.index t (0 : Fin 3) ∧ win0_0.index t (1 : Fin 3) = win0_5.index t (1 : Fin 3)
    ∧ win0_0.index t (2 : Fin 3) = 0
    ∧ win0_1.index t (0 : Fin 3) = win0_5.index t (0 : Fin 3) ∧ win0_1.index t (1 : Fin 3) = 0 ∧ win0_1.index t (2 : Fin 3) = 0
    ∧ win0_2.index t (0 : Fin 3) = win0_5.index t (0 : Fin 3) ∧ win0_2.index t (1 : Fin 3) = 0 ∧ win0_2.index t (2 : Fin 3) = 0
    ∧ win0_3.index t (0 : Fin 3) = win0_5.index t (0 : Fin 3) ∧ win0_3.index t (1 : Fin 3) = win0_5.index t (1 : Fin 3)
    ∧ win0_3.index t (2 : Fin 3) = 0
    ∧ win0_4.index t (0 : Fin 3) = win0_5.index t (0 : Fin 3) ∧ win0_4.index t (1 : Fin 3) = win0_5.index t (1 : Fin 3)
    ∧ win0_4.index t (2 : Fin 3) = 0
    ∧ win0_5.index t (0 : Fin 3) ≤ 31 ∧ win0_5.index t (1 : Fin 3) ≤ 3 ∧ win0_5.index t (2 : Fin 3) = 0 :=
  (by decide +kernel : ∀ t : Fin grid0.N, _)

/-- Every block index (A, B, 0) with A < 32 and B < 4 is some point's. -/
theorem idx_onto : ∀ (q0 : Fin 32) (q1 : Fin 4), ∃ t : Fin cfg0.N, win0_5.index t = ![q0.val, q1.val, 0] :=
  (by decide +kernel : ∀ (q0 : Fin 32) (q1 : Fin 4), ∃ t : Fin grid0.N, win0_5.index t = ![q0.val, q1.val, 0])

/-- WHAT POINT t WRITES BACK to the attention result is block t of the attention array of the arrays the region
    finds. -/
theorem flushed5_eq (c : Dev nD) (t : Fin cfg0.N) :
    (dats m 0 c).flushed 5 t
      = ((cfg0.win 5).blk t).view.read (Elt Ideal) (attn3 (V m c main_v0) (V m c main_v1) (V m c main_v3)) := by
  show (cfg0.win 5).cut (grid0.coords t) ((dats m 0 c).after 5 t) = _
  rw [after0_5]
  unfold out0_5
  rw [View.canon_unit_zero hz]
  simp only [View.ld_unit_zero (S := S1x512x64) hz, View.ld_unit_zero (S := S1x2048x64) hz,
    View.ld_unit_zero (S := S1x512x2048) hz]
  obtain ⟨a00, a01, a02, a10, a11, a12, a20, a21, a22, a30, a31, a32, a40, a41, a42, b0, b1, b2⟩ := idx_facts t
  funext y
  show k0_pay3 (F := Ideal) (iblk m c 0 t) (iblk m c 1 t) (iblk m c 3 t) y
    = attn3 (V m c main_v0) (V m c main_v1) (V m c main_v3) (((cfg0.win 5).blk t).view.emb y)
  refine attn_point (V m c main_v0) (V m c main_v1) (V m c main_v3) (iblk m c 0 t) (iblk m c 1 t) (iblk m c 3 t)
    (fun y => ((cfg0.win 0).blk t).view.emb y) (fun y => ((cfg0.win 1).blk t).view.emb y)
    (fun y => ((cfg0.win 3).blk t).view.emb y) rfl rfl rfl (win0_5.index t (0 : Fin 3)) (win0_5.index t (1 : Fin 3))
    (fun y' => ?_) (fun y' => ?_) (fun y' => ?_) y (((cfg0.win 5).blk t).view.emb y) ?_
  · refine ⟨?_, ?_, ?_⟩
    · show win0_0.index t (0 : Fin 3) * 1 + 1 * (y' 0).val = _
      have : (y' 0).val < 1 := (y' 0).isLt
      omega
    · show win0_0.index t (1 : Fin 3) * 512 + 1 * (y' 1).val = _
      omega
    · show win0_0.index t (2 : Fin 3) * 64 + 1 * (y' 2).val = _
      omega
  · refine ⟨?_, ?_, ?_⟩
    · show win0_1.index t (0 : Fin 3) * 1 + 1 * (y' 0).val = _
      have : (y' 0).val < 1 := (y' 0).isLt
      omega
    · show win0_1.index t (1 : Fin 3) * 2048 + 1 * (y' 1).val = _
      omega
    · show win0_1.index t (2 : Fin 3) * 64 + 1 * (y' 2).val = _
      omega
  · refine ⟨?_, ?_, ?_⟩
    · show win0_3.index t (0 : Fin 3) * 1 + 1 * (y' 0).val = _
      have : (y' 0).val < 1 := (y' 0).isLt
      omega
    · show win0_3.index t (1 : Fin 3) * 512 + 1 * (y' 1).val = _
      omega
    · show win0_3.index t (2 : Fin 3) * 2048 + 1 * (y' 2).val = _
      omega
  · refine ⟨?_, ?_, ?_⟩
    · show win0_5.index t (0 : Fin 3) * 1 + 1 * (y 0).val = _
      have : (y 0).val < 1 := (y 0).isLt
      omega
    · show win0_5.index t (1 : Fin 3) * 512 + 1 * (y 1).val = _
      omega
    · show win0_5.index t (2 : Fin 3) * 2048 + 1 * (y 2).val = _
      omega

/-- WHAT POINT t WRITES BACK to the context result is block t of the context array of the arrays the region finds. -/
theorem flushed4_eq (c : Dev nD) (t : Fin cfg0.N) :
    (dats m 0 c).flushed 4 t
      = ((cfg0.win 4).blk t).view.read (Elt Ideal)
          (ctx3 (V m c main_v0) (V m c main_v1) (V m c main_v2) (V m c main_v3)) := by
  show (cfg0.win 4).cut (grid0.coords t) ((dats m 0 c).after 4 t) = _
  rw [after0_4]
  unfold out0_4
  rw [View.canon_unit_zero hz]
  simp only [View.ld_unit_zero (S := S1x512x64) hz, View.ld_unit_zero (S := S1x2048x64) hz,
    View.ld_unit_zero (S := S1x512x2048) hz]
  obtain ⟨a00, a01, a02, a10, a11, a12, a20, a21, a22, a30, a31, a32, a40, a41, a42, b0, b1, b2⟩ := idx_facts t
  funext y
  show k0_pay4 (F := Ideal) (iblk m c 0 t) (iblk m c 1 t) (iblk m c 2 t) (iblk m c 3 t) y
    = ctx3 (V m c main_v0) (V m c main_v1) (V m c main_v2) (V m c main_v3) (((cfg0.win 4).blk t).view.emb y)
  refine ctx_point (V m c main_v0) (V m c main_v1) (V m c main_v2) (V m c main_v3)
    (iblk m c 0 t) (iblk m c 1 t) (iblk m c 2 t) (iblk m c 3 t)
    (fun y => ((cfg0.win 0).blk t).view.emb y) (fun y => ((cfg0.win 1).blk t).view.emb y)
    (fun y => ((cfg0.win 2).blk t).view.emb y) (fun y => ((cfg0.win 3).blk t).view.emb y) rfl rfl rfl rfl
    (win0_5.index t (0 : Fin 3)) (win0_5.index t (1 : Fin 3))
    (fun y' => ?_) (fun y' => ?_) (fun y' => ?_) (fun y' => ?_) y (((cfg0.win 4).blk t).view.emb y) ?_
  · refine ⟨?_, ?_, ?_⟩
    · show win0_0.index t (0 : Fin 3) * 1 + 1 * (y' 0).val = _
      have : (y' 0).val < 1 := (y' 0).isLt
      omega
    · show win0_0.index t (1 : Fin 3) * 512 + 1 * (y' 1).val = _
      omega
    · show win0_0.index t (2 : Fin 3) * 64 + 1 * (y' 2).val = _
      omega
  · refine ⟨?_, ?_, ?_⟩
    · show win0_1.index t (0 : Fin 3) * 1 + 1 * (y' 0).val = _
      have : (y' 0).val < 1 := (y' 0).isLt
      omega
    · show win0_1.index t (1 : Fin 3) * 2048 + 1 * (y' 1).val = _
      omega
    · show win0_1.index t (2 : Fin 3) * 64 + 1 * (y' 2).val = _
      omega
  · refine ⟨?_, ?_, ?_⟩
    · show win0_2.index t (0 : Fin 3) * 1 + 1 * (y' 0).val = _
      have : (y' 0).val < 1 := (y' 0).isLt
      omega
    · show win0_2.index t (1 : Fin 3) * 2048 + 1 * (y' 1).val = _
      omega
    · show win0_2.index t (2 : Fin 3) * 64 + 1 * (y' 2).val = _
      omega
  · refine ⟨?_, ?_, ?_⟩
    · show win0_3.index t (0 : Fin 3) * 1 + 1 * (y' 0).val = _
      have : (y' 0).val < 1 := (y' 0).isLt
      omega
    · show win0_3.index t (1 : Fin 3) * 512 + 1 * (y' 1).val = _
      omega
    · show win0_3.index t (2 : Fin 3) * 2048 + 1 * (y' 2).val = _
      omega
  · refine ⟨?_, ?_, ?_⟩
    · show win0_4.index t (0 : Fin 3) * 1 + 1 * (y 0).val = _
      have : (y 0).val < 1 := (y 0).isLt
      omega
    · show win0_4.index t (1 : Fin 3) * 512 + 1 * (y 1).val = _
      omega
    · show win0_4.index t (2 : Fin 3) * 64 + 1 * (y 2).val = _
      omega

/-- An index of the attention result is in point t's block iff each coordinate is in the block's range on its axis. -/
theorem mem_blk5 (t : Fin cfg0.N) (i : S32x2048x2048.Idx) :
    i ∈ ((cfg0.win 5).blk t).view.set ↔ ∀ a : Fin 3, win0_5.index t a * S1x512x2048.size a ≤ (i a).val
      ∧ (i a).val < win0_5.index t a * S1x512x2048.size a + S1x512x2048.size a := by
  show i ∈ ((View.whole main_v4_1).slice (win0_5.rect t)).set ↔ _
  rw [View.set_slice_whole, Rect.mem_set_unit]
  exact Iff.rfl

/-- An index of the context result is in point t's block iff each coordinate is in the block's range on its axis. -/
theorem mem_blk4 (t : Fin cfg0.N) (i : S32x2048x64.Idx) :
    i ∈ ((cfg0.win 4).blk t).view.set ↔ ∀ a : Fin 3, win0_4.index t a * S1x512x64.size a ≤ (i a).val
      ∧ (i a).val < win0_4.index t a * S1x512x64.size a + S1x512x64.size a := by
  show i ∈ ((View.whole main_v4_0).slice (win0_4.rect t)).set ↔ _
  rw [View.set_slice_whole, Rect.mem_set_unit]
  exact Iff.rfl

/-- Every index of the attention result is in the block of the point at block (slab, row / 512). -/
theorem cover5 (i : S32x2048x2048.Idx) :
    ∃ t : Fin cfg0.N, (cfg0.win 5).flush t = true ∧ i ∈ ((cfg0.win 5).blk t).view.set := by
  have hi0 : (i 0).val < 32 := (i 0).isLt
  have hi1 : (i 1).val < 2048 := (i 1).isLt
  have hi2 : (i 2).val < 2048 := (i 2).isLt
  obtain ⟨t, ht⟩ := idx_onto ⟨(i 0).val, hi0⟩ ⟨(i 1).val / 512, by omega⟩
  have q0 : win0_5.index t (0 : Fin 3) = (i 0).val := congrFun ht 0
  have q1 : win0_5.index t (1 : Fin 3) = (i 1).val / 512 := congrFun ht 1
  have q2 : win0_5.index t (2 : Fin 3) = 0 := congrFun ht 2
  refine ⟨t, flush0_5 t, ?_⟩
  rw [mem_blk5]
  intro a
  match a with
  | ⟨0, _⟩ =>
    show win0_5.index t (0 : Fin 3) * 1 ≤ (i 0).val ∧ (i 0).val < win0_5.index t (0 : Fin 3) * 1 + 1
    omega
  | ⟨1, _⟩ =>
    show win0_5.index t (1 : Fin 3) * 512 ≤ (i 1).val ∧ (i 1).val < win0_5.index t (1 : Fin 3) * 512 + 512
    omega
  | ⟨2, _⟩ =>
    show win0_5.index t (2 : Fin 3) * 2048 ≤ (i 2).val ∧ (i 2).val < win0_5.index t (2 : Fin 3) * 2048 + 2048
    omega

/-- Every index of the context result is in the block of the point at block (slab, row / 512). -/
theorem cover4 (i : S32x2048x64.Idx) :
    ∃ t : Fin cfg0.N, (cfg0.win 4).flush t = true ∧ i ∈ ((cfg0.win 4).blk t).view.set := by
  have hi0 : (i 0).val < 32 := (i 0).isLt
  have hi1 : (i 1).val < 2048 := (i 1).isLt
  have hi2 : (i 2).val < 64 := (i 2).isLt
  obtain ⟨t, ht⟩ := idx_onto ⟨(i 0).val, hi0⟩ ⟨(i 1).val / 512, by omega⟩
  obtain ⟨a00, a01, a02, a10, a11, a12, a20, a21, a22, a30, a31, a32, a40, a41, a42, b0, b1, b2⟩ := idx_facts t
  have q0 : win0_5.index t (0 : Fin 3) = (i 0).val := congrFun ht 0
  have q1 : win0_5.index t (1 : Fin 3) = (i 1).val / 512 := congrFun ht 1
  refine ⟨t, flush0_4 t, ?_⟩
  rw [mem_blk4]
  intro a
  match a with
  | ⟨0, _⟩ =>
    show win0_4.index t (0 : Fin 3) * 1 ≤ (i 0).val ∧ (i 0).val < win0_4.index t (0 : Fin 3) * 1 + 1
    omega
  | ⟨1, _⟩ =>
    show win0_4.index t (1 : Fin 3) * 512 ≤ (i 1).val ∧ (i 1).val < win0_4.index t (1 : Fin 3) * 512 + 512
    omega
  | ⟨2, _⟩ =>
    show win0_4.index t (2 : Fin 3) * 64 ≤ (i 2).val ∧ (i 2).val < win0_4.index t (2 : Fin 3) * 64 + 64
    omega

/-- THE ATTENTION RESULT after the run is the attention array of the arrays the region finds. -/
theorem final5 (c : Dev nD) :
    (dats m 0 c).arrAt 5 cfg0.N = attn3 (V m c main_v0) (V m c main_v1) (V m c main_v3) :=
  (dats m 0 c).arrAt_eq_of_cover 5 _ (fun t _ => flushed5_eq m c t) cover5

/-- THE CONTEXT RESULT after the run is the context array of the arrays the region finds. -/
theorem final4 (c : Dev nD) :
    (dats m 0 c).arrAt 4 cfg0.N = ctx3 (V m c main_v0) (V m c main_v1) (V m c main_v2) (V m c main_v3) :=
  (dats m 0 c).arrAt_eq_of_cover 4 _ (fun t _ => flushed4_eq m c t) cover4

end Cert.Attn.Final

end
-- ==== Proof.LibMerge4.lean ====
/-
  Merging the two leading axes of a four-axis array into one, and splitting them again, read at an index.

  A reshape keeps every element's row-major position. For an A × B × C × D array read as R × C × D (R = A · B), slab
  a · B + b of the merged array is slab (a, b) of the original: entry (a · B + b, c, d) is entry (a, b, c, d); and for an
  R × C × D array read as A × B × C × D, entry (a, b, c, d) is entry (a · B + b, c, d). The row-major position of
  (a, b, c, d) is ((a · B + b) · C + c) · D + d, that of (r, c, d) is (r · C + c) · D + d, and the two agree when
  r = a · B + b.
-/
import Idealize.ShloMosaic.Lib.Pipeline.Value
import Idealize.ShloMosaic.Lib.ValueIdx

namespace Cert.LibMerge4

open Idealize.ShloMosaic Idealize.ShloMosaic.ValueIdx

variable {α : Type}

/-- An A × B × C × D array reshaped to R × C × D, at (r, c, d) with r = a · B + b, reads the array at (a, b, c, d). -/
theorem shapeCast_merge_apply {A B C D R : ℕ} (x : (⟨4, ![A, B, C, D]⟩ : Shape).Idx → α)
    (h : (⟨4, ![A, B, C, D]⟩ : Shape).ShapeCasts ⟨3, ![R, C, D]⟩) (a : Fin A) (b : Fin B) (c : Fin C) (d : Fin D)
    (r : Fin R) (hr : r.val = a.val * B + b.val) : shapeCast ⟨3, ![R, C, D]⟩ x h (ix3 r c d) = x (ix4 a b c d) :=
  shapeCast_apply x h _ _ (by
    rw [Shape.rowMajor_val_four, Shape.rowMajor_val_three]
    show ((a.val * B + b.val) * C + c.val) * D + d.val = (r.val * C + c.val) * D + d.val
    rw [hr])

/-- An R × C × D array reshaped to A × B × C × D, at (a, b, c, d), reads the array at (r, c, d) with r = a · B + b. -/
theorem shapeCast_split_apply {A B C D R : ℕ} (y : (⟨3, ![R, C, D]⟩ : Shape).Idx → α)
    (h : (⟨3, ![R, C, D]⟩ : Shape).ShapeCasts ⟨4, ![A, B, C, D]⟩) (a : Fin A) (b : Fin B) (c : Fin C) (d : Fin D)
    (r : Fin R) (hr : r.val = a.val * B + b.val) : shapeCast ⟨4, ![A, B, C, D]⟩ y h (ix4 a b c d) = y (ix3 r c d) :=
  shapeCast_apply y h _ _ (by
    rw [Shape.rowMajor_val_three, Shape.rowMajor_val_four]
    show (r.val * C + c.val) * D + d.val = ((a.val * B + b.val) * C + c.val) * D + d.val
    rw [hr])

end Cert.LibMerge4
-- ==== Proof.KValue.lean ====
/-
  The kernel program's two results, read at an index as functions of its four arguments.

  Before the region the program merges the batch and head axes of each argument (a reshape: slab b · 16 + h of the
  merged array is slab (b, h) of the argument), and after the region it splits the leading axis of each result again.
  So the context result at (b, h, i, e) is the region's context array at (b · 16 + h, i, e), which is the mix of
  column e of the values of (b, h) by the exponentials of the scores of query row i of (b, h), divided once by their
  sum; and the attention result at (b, h, i, j) is the softmax weight j of that row.
-/
import proofs.«119278_j30107720745040_2_alg».proof.Proof.KFinal
import proofs.«119278_j30107720745040_2_alg».proof.Proof.LibMerge4
import Idealize.ShloMosaic.Lib.StableHlo.Run

noncomputable section

namespace Cert.Attn.Final

open Cert.KernelIdeal Cert.KernelIdeal.Gen Idealize.ShloMosaic Idealize.ShloMosaic.TcCoe Idealize.SL.Sem
open Idealize.ShloMosaic.StableHlo Idealize.ShloMosaic.ValueIdx
open Idealize.ShloMosaic.Pipeline (Dat)
open Cert.Attn Cert.Attn.Block

/-- The row of scaled, masked scores of query row (b, h, i) of the arguments. -/
def krow (x0 x1 : S2x16x2048x64.Idx → EReal) (x3 : S2x16x2048x2048.Idx → EReal)
    (b : Fin 2) (h : Fin 16) (i : Fin 2048) : Fin 2048 → EReal :=
  fun j => score (fun d : Fin 64 => x0 (ix4 b h i d)) (fun d : Fin 64 => x1 (ix4 b h j d)) (x3 (ix4 b h i j))

/-- A row of scores of the merged arrays is the row of the arguments at the slab's batch and head. -/
theorem row3_merge (x0 x1 : S2x16x2048x64.Idx → EReal) (x3 : S2x16x2048x2048.Idx → EReal)
    (hc : S2x16x2048x64.ShapeCasts S32x2048x64) (hc' : S2x16x2048x2048.ShapeCasts S32x2048x2048)
    (b : Fin 2) (h : Fin 16) (i : Fin 2048) (r : Fin 32) (hr : r.val = b.val * 16 + h.val) :
    row3 (shapeCast S32x2048x64 x0 hc) (shapeCast S32x2048x64 x1 hc) (shapeCast S32x2048x2048 x3 hc') r i
      = krow x0 x1 x3 b h i := by
  funext j
  have e0 : ∀ d : Fin 64, shapeCast S32x2048x64 x0 hc (ix3 r i d) = x0 (ix4 b h i d) :=
    fun d => Cert.LibMerge4.shapeCast_merge_apply x0 hc b h i d r hr
  have e1 : ∀ d : Fin 64, shapeCast S32x2048x64 x1 hc (ix3 r j d) = x1 (ix4 b h j d) :=
    fun d => Cert.LibMerge4.shapeCast_merge_apply x1 hc b h j d r hr
  have e3 : shapeCast S32x2048x2048 x3 hc' (ix3 r i j) = x3 (ix4 b h i j) :=
    Cert.LibMerge4.shapeCast_merge_apply x3 hc' b h i j r hr
  unfold row3 krow
  rw [e3, funext e0, funext e1]

variable (m : (ℓ : Loc nD τ sig) → Buf (Elt Ideal) ℓ) (ρ : Dev nD → PrngReg)

/-- The region finds each merged array as the reshape of the argument. -/
theorem V_v0 (c : Dev nD) : V m c main_v0
    = shapeCast S32x2048x64 (m ((c : Thread nD τ).loc main_arg0)) shapeCasts_S2x16x2048x64_S32x2048x64 := by
  show StableHlo.after hostOps0 (fun b => m (c, b)) (Proc.devRef .tc main_v0) = _
  after_results
  rfl
theorem V_v1 (c : Dev nD) : V m c main_v1
    = shapeCast S32x2048x64 (m ((c : Thread nD τ).loc main_arg1)) shapeCasts_S2x16x2048x64_S32x2048x64 := by
  show StableHlo.after hostOps0 (fun b => m (c, b)) (Proc.devRef .tc main_v1) = _
  after_results
  rfl
theorem V_v2 (c : Dev nD) : V m c main_v2
    = shapeCast S32x2048x64 (m ((c : Thread nD τ).loc main_arg2)) shapeCasts_S2x16x2048x64_S32x2048x64 := by
  show StableHlo.after hostOps0 (fun b => m (c, b)) (Proc.devRef .tc main_v2) = _
  after_results
  rfl
theorem V_v3 (c : Dev nD) : V m c main_v3
    = shapeCast S32x2048x2048 (m ((c : Thread nD τ).loc main_arg3)) shapeCasts_S2x16x2048x2048_S32x2048x2048 := by
  show StableHlo.after hostOps0 (fun b => m (c, b)) (Proc.devRef .tc main_v3) = _
  after_results
  rfl

/-- The program's context result is the split of the region's context array. -/
theorem tail_v5 (c : Dev nD) : Pipeline.afterTail₀ cfgs (dats m) 0 (V0 m) [hostOps1] c main_v5
    = shapeCast S2x16x2048x64 (ctx3 (V m c main_v0) (V m c main_v1) (V m c main_v2) (V m c main_v3))
        shapeCasts_S32x2048x64_S2x16x2048x64 := by
  have e : Pipeline.withArrays (cfgs 0).spec c (V0 m c) (fun w => (dats m 0 c).arrAt w (cfgs 0).N) (Proc.devRef .tc main_v4_0)
      = ctx3 (V m c main_v0) (V m c main_v1) (V m c main_v2) (V m c main_v3) :=
    (Pipeline.withArrays_arr spec0 launch0.win.arr_inj c _ _ 4).trans (final4 m c)
  unfold Pipeline.afterTail₀
  show StableHlo.after hostOps1 _ (Proc.devRef .tc main_v5) = _
  after_results
  rw [e]
  rfl

/-- The program's attention result is the split of the region's attention array. -/
theorem tail_v6 (c : Dev nD) : Pipeline.afterTail₀ cfgs (dats m) 0 (V0 m) [hostOps1] c main_v6
    = shapeCast S2x16x2048x2048 (attn3 (V m c main_v0) (V m c main_v1) (V m c main_v3))
        shapeCasts_S32x2048x2048_S2x16x2048x2048 := by
  have e : Pipeline.withArrays (cfgs 0).spec c (V0 m c) (fun w => (dats m 0 c).arrAt w (cfgs 0).N) (Proc.devRef .tc main_v4_1)
      = attn3 (V m c main_v0) (V m c main_v1) (V m c main_v3) :=
    (Pipeline.withArrays_arr spec0 launch0.win.arr_inj c _ _ 5).trans (final5 m c)
  unfold Pipeline.afterTail₀
  show StableHlo.after hostOps1 _ (Proc.devRef .tc main_v6) = _
  after_results
  rw [e]
  rfl

/-- The program's context result at (b, h, i, e). -/
theorem ctx_at (c : Dev nD) (b : Fin 2) (h : Fin 16) (i : Fin 2048) (e : Fin 64) :
    Pipeline.afterTail₀ cfgs (dats m) 0 (V0 m) [hostOps1] c main_v5 (ix4 b h i e)
      = mixLate (krow (m ((c : Thread nD τ).loc main_arg0)) (m ((c : Thread nD τ).loc main_arg1))
          (m ((c : Thread nD τ).loc main_arg3)) b h i)
          (fun j : Fin 2048 => m ((c : Thread nD τ).loc main_arg2) (ix4 b h j e)) := by
  have hr : (⟨b.val * 16 + h.val, by omega⟩ : Fin 32).val = b.val * 16 + h.val := rfl
  rw [tail_v5, Cert.LibMerge4.shapeCast_split_apply _ _ b h i e ⟨b.val * 16 + h.val, by omega⟩ hr]
  show mixLate (row3 (V m c main_v0) (V m c main_v1) (V m c main_v3) ⟨b.val * 16 + h.val, by omega⟩ i)
    (fun j : Fin 2048 => V m c main_v2 (ix3 (⟨b.val * 16 + h.val, by omega⟩ : Fin 32) j e)) = _
  rw [V_v0, V_v1, V_v2, V_v3, row3_merge _ _ _ _ _ b h i _ hr]
  refine congrArg (mixLate _) (funext fun j => ?_)
  exact Cert.LibMerge4.shapeCast_merge_apply _ _ b h j e _ hr

/-- The program's attention result at (b, h, i, j). -/
theorem attn_at (c : Dev nD) (b : Fin 2) (h : Fin 16) (i : Fin 2048) (j : Fin 2048) :
    Pipeline.afterTail₀ cfgs (dats m) 0 (V0 m) [hostOps1] c main_v6 (ix4 b h i j)
      = weight (krow (m ((c : Thread nD τ).loc main_arg0)) (m ((c : Thread nD τ).loc main_arg1))
          (m ((c : Thread nD τ).loc main_arg3)) b h i) j := by
  have hr : (⟨b.val * 16 + h.val, by omega⟩ : Fin 32).val = b.val * 16 + h.val := rfl
  rw [tail_v6, Cert.LibMerge4.shapeCast_split_apply _ _ b h i j ⟨b.val * 16 + h.val, by omega⟩ hr]
  show weight (row3 (V m c main_v0) (V m c main_v1) (V m c main_v3) ⟨b.val * 16 + h.val, by omega⟩ i) j = _
  rw [V_v0, V_v1, V_v3, row3_merge _ _ _ _ _ b h i _ hr]

end Cert.Attn.Final

end
-- ==== Proof.RefSide.lean ====
/-
  The reference program's two results read at an index.

  The reference computes, for each batch b, head h and query row i, the row of scores
  s(j) = (q(b,h,i,·) · k(b,h,j,·)) / 8 · mask(b,h,i,j), the softmax weights of that row, and the mix of the value rows
  v(b,h,j,·) by those weights. Read at an index, its attention result is the softmax weight of the row's scores and its
  context result is the weighted mix taken with the weights normalised first.
-/
import proofs.«119278_j30107720745040_2_alg».proof.Proof.Gen.ReferenceIdeal.Read
import proofs.«119278_j30107720745040_2_alg».proof.Proof.Softmax
import Idealize.ShloMosaic.Lib.ValueIdx

noncomputable section

namespace Cert.Attn.Ref

open Idealize.ShloMosaic Idealize.ShloMosaic.ValueIdx Cert.ReferenceIdeal Cert.ReferenceIdeal.Gen Cert.Attn

/-- The row of scaled, masked scores of query row (b, h, i). -/
def srow (x0 x1 : FVec Ideal S2x16x2048x64 .f32) (x3 : FVec Ideal S2x16x2048x2048 .f32)
    (b : Fin 2) (h : Fin 16) (i : Fin 2048) : Fin 2048 → EReal :=
  fun j => score (fun d : Fin 64 => x0 (ix4 b h i d)) (fun d : Fin 64 => x1 (ix4 b h j d)) (x3 (ix4 b h i j))

/-! ### The composed index functions at a point -/

/-- The left operand's index of the score's dot product at (b, h, i, j): row i of q. -/
theorem lidx_v0_ix4 (b : Fin 2) (h : Fin 16) (i j : Fin 2048) (d : Fin 64) :
    Read.lidx_main_v0 (ix4 b h i j) d = ix4 b h i d :=
  funext fun a => Fin.ext (by match a with | ⟨0, _⟩ => rfl | ⟨1, _⟩ => rfl | ⟨2, _⟩ => rfl | ⟨3, _⟩ => rfl)

/-- The right operand's index of the score's dot product at (b, h, i, j): row j of k. -/
theorem ridx_v0_ix4 (b : Fin 2) (h : Fin 16) (i j : Fin 2048) (d : Fin 64) :
    Read.ridx_main_v0 (ix4 b h i j) d = ix4 b h j d :=
  funext fun a => Fin.ext (by match a with | ⟨0, _⟩ => rfl | ⟨1, _⟩ => rfl | ⟨2, _⟩ => rfl | ⟨3, _⟩ => rfl)

/-- The two broadcasts of the row maximum read it at the row (b, h, i). -/
theorem idx_v7_v8_ix4 (b : Fin 2) (h : Fin 16) (i j : Fin 2048) :
    Read.idx_main_v7 (Read.idx_main_v8 (ix4 b h i j)) = ix3 b h i :=
  funext fun a => Fin.ext (by match a with | ⟨0, _⟩ => rfl | ⟨1, _⟩ => rfl | ⟨2, _⟩ => rfl)

/-- Likewise for the two broadcasts of the row's sum of exponentials. -/
theorem idx_v12_v13_ix4 (b : Fin 2) (h : Fin 16) (i j : Fin 2048) :
    Read.idx_main_v12 (Read.idx_main_v13 (ix4 b h i j)) = ix3 b h i :=
  funext fun a => Fin.ext (by match a with | ⟨0, _⟩ => rfl | ⟨1, _⟩ => rfl | ⟨2, _⟩ => rfl)

/-- The row sum's summand index at the row (b, h, i): position k of the row. -/
theorem idx_v11_ix3 (b : Fin 2) (h : Fin 16) (i k : Fin 2048) :
    Read.idx_main_v11 (ix3 b h i) k = ix4 b h i k :=
  funext fun a => Fin.ext (by match a with | ⟨0, _⟩ => rfl | ⟨1, _⟩ => rfl | ⟨2, _⟩ => rfl | ⟨3, _⟩ => rfl)

/-- The mix's left operand index at (b, h, i, e): weight k of the row. -/
theorem lidx_v15_ix4 (b : Fin 2) (h : Fin 16) (i : Fin 2048) (e : Fin 64) (k : Fin 2048) :
    Read.lidx_main_v15 (ix4 b h i e) k = ix4 b h i k :=
  funext fun a => Fin.ext (by match a with | ⟨0, _⟩ => rfl | ⟨1, _⟩ => rfl | ⟨2, _⟩ => rfl | ⟨3, _⟩ => rfl)

/-- The mix's right operand index at (b, h, i, e): column e of value row k. -/
theorem ridx_v15_ix4 (b : Fin 2) (h : Fin 16) (i : Fin 2048) (e : Fin 64) (k : Fin 2048) :
    Read.ridx_main_v15 (ix4 b h i e) k = ix4 b h k e :=
  funext fun a => Fin.ext (by match a with | ⟨0, _⟩ => rfl | ⟨1, _⟩ => rfl | ⟨2, _⟩ => rfl | ⟨3, _⟩ => rfl)

/-- The row index (b, h, i) with key position k put back on the reduced axis is (b, h, i, k). -/
theorem lift_ix3 (hr : S2x16x2048x2048.Reduces [3] S2x16x2048) (b : Fin 2) (h : Fin 16) (i : Fin 2048)
    (k : Fin (S2x16x2048x2048.size 3)) : hr.lift (ix3 b h i) k = ix4 b h i (⟨k.val, k.isLt⟩ : Fin 2048) := by
  funext c; apply Fin.ext
  match c with
  | ⟨0, _⟩ => rfl
  | ⟨1, _⟩ => rfl
  | ⟨2, _⟩ => rfl
  | ⟨3, _⟩ => rfl

/-! ### The stages read at a point -/

/-- The scaled, masked score at (b, h, i, j). -/
theorem v3_apply (x0 x1 : FVec Ideal S2x16x2048x64 .f32) (x3 : FVec Ideal S2x16x2048x2048 .f32)
    (b : Fin 2) (h : Fin 16) (i j : Fin 2048) :
    Read.val_main_v3 (F := Ideal) x0 x1 x3 (ix4 b h i j) = srow x0 x1 x3 b h i j := by
  rw [Read.val_main_v3_apply, Read.val_main_v2_apply, Read.val_main_v0_apply, Read.val_main_v1_apply,
    Read.val_main_cst_apply]
  simp only [Ideal.mulf_def, Ideal.hostDivf_def, Ideal.ofBits_def, div_eight, lidx_v0_ix4, ridx_v0_ix4]
  rfl

/-- The row maximum at (b, h, i). -/
theorem v6_apply (x0 x1 : FVec Ideal S2x16x2048x64 .f32) (x3 : FVec Ideal S2x16x2048x2048 .f32)
    (b : Fin 2) (h : Fin 16) (i : Fin 2048) :
    Read.val_main_v6 (F := Ideal) x0 x1 x3 (ix3 b h i) = rowMax (srow x0 x1 x3 b h i) := by
  have hr : S2x16x2048x2048.Reduces [3] S2x16x2048 := by decide
  rw [Read.val_main_v6_apply, Read.val_main_v5_apply, Read.val_main_cst_1_apply]
  unfold Read.val_main_v4
  rw [Host.reduce_eq_fold_single FloatOps.maximumf _ _ reducesTo_S2x16x2048x2048_S2x16x2048_d3 hr h_S_]
  rw [Read.val_main_cst_0_apply]
  have hf : (Read.val_main_v3 (F := Ideal) x0 x1 x3 ∘ hr.lift (ix3 b h i))
      = fun k : Fin 2048 => srow x0 x1 x3 b h i k :=
    funext fun k => (congrArg (Read.val_main_v3 (F := Ideal) x0 x1 x3) (lift_ix3 hr b h i k)).trans
      (v3_apply x0 x1 x3 b h i ⟨k.val, k.isLt⟩)
  rw [hf]
  simp only [Ideal.maximumf_def, Ideal.ofBits_def]
  exact max_negInf_rowMax (srow x0 x1 x3 b h i)

/-- The exponential of the score less the row maximum at (b, h, i, j). -/
theorem v10_apply (x0 x1 : FVec Ideal S2x16x2048x64 .f32) (x3 : FVec Ideal S2x16x2048x2048 .f32)
    (b : Fin 2) (h : Fin 16) (i j : Fin 2048) :
    Read.val_main_v10 (F := Ideal) x0 x1 x3 (ix4 b h i j) = expo (srow x0 x1 x3 b h i) j := by
  rw [Read.val_main_v10_apply, Read.val_main_v9_apply, Read.val_main_v8_apply, Read.val_main_v7_apply,
    idx_v7_v8_ix4, v3_apply, v6_apply]
  simp only [Ideal.hostUnary_exp_def, Ideal.subf_def]
  rfl

/-- The sum of the row's exponentials at (b, h, i). -/
theorem v11_apply (x0 x1 : FVec Ideal S2x16x2048x64 .f32) (x3 : FVec Ideal S2x16x2048x2048 .f32)
    (b : Fin 2) (h : Fin 16) (i : Fin 2048) :
    Read.val_main_v11 (F := Ideal) x0 x1 x3 (ix3 b h i) = denom (srow x0 x1 x3 b h i) := by
  rw [Read.val_main_v11_apply, Read.val_main_cst_2_apply]
  simp only [Ideal.ofBits_def, Ideal.ofBits_zero_f32, zero_add, idx_v11_ix3, v10_apply]
  rfl

/-- The attention result at (b, h, i, j) is the softmax weight j of the row's scores. -/
theorem attn_apply (x0 x1 : FVec Ideal S2x16x2048x64 .f32) (x3 : FVec Ideal S2x16x2048x2048 .f32)
    (b : Fin 2) (h : Fin 16) (i : Fin 2048) (j : Fin 2048) :
    Cert.ReferenceIdeal.Read.val_main_v14 (F := Ideal) x0 x1 x3 (ix4 b h i j) = weight (srow x0 x1 x3 b h i) j := by
  rw [Read.val_main_v14_apply, Read.val_main_v13_apply, Read.val_main_v12_apply, idx_v12_v13_ix4, v10_apply, v11_apply]
  simp only [Ideal.hostDivf_def]
  rfl

/-- The context result at (b, h, i, e) is the mix of column e of the values by the normalised weights. -/
theorem ctx_apply (x0 x1 x2 : FVec Ideal S2x16x2048x64 .f32) (x3 : FVec Ideal S2x16x2048x2048 .f32)
    (b : Fin 2) (h : Fin 16) (i : Fin 2048) (e : Fin 64) :
    Cert.ReferenceIdeal.Read.val_main_v15 (F := Ideal) x0 x1 x2 x3 (ix4 b h i e)
      = mixEarly (srow x0 x1 x3 b h i) (fun j : Fin 2048 => x2 (ix4 b h j e)) := by
  rw [Read.val_main_v15_apply]
  unfold mixEarly
  refine Finset.sum_congr rfl fun k _ => ?_
  rw [lidx_v15_ix4, ridx_v15_ix4, attn_apply]

end Cert.Attn.Ref

end
-- ==== Proof.RefLate.lean ====
/-
  The reference program's context result as a mix divided once.

  The reference normalises each softmax weight and then sums the products with the values. When every entry of the
  four arrays is a real, each score of a row is a real (a finite sum of products of reals, scaled and masked by reals),
  so the row's sum of exponentials is a positive real and division by it distributes over the finite sum: the context
  result equals the sum of the products of the unnormalised exponentials with the values, divided once by that sum.
-/
import proofs.«119278_j30107720745040_2_alg».proof.Proof.RefSide
import proofs.«119278_j30107720745040_2_alg».proof.Proof.Softmax

noncomputable section

namespace Cert.Attn.Ref

open Idealize.ShloMosaic Idealize.ShloMosaic.ValueIdx Cert.ReferenceIdeal Cert.ReferenceIdeal.Gen Cert.Attn

/-- With every entry of the four arrays a real, the reference's context result is also the mix divided once. -/
theorem ctx_late (x0 x1 x2 : FVec Ideal S2x16x2048x64 .f32) (x3 : FVec Ideal S2x16x2048x2048 .f32)
    (h0 : ∀ i, ∃ r : ℝ, x0 i = (r : EReal)) (h1 : ∀ i, ∃ r : ℝ, x1 i = (r : EReal)) (h2 : ∀ i, ∃ r : ℝ, x2 i = (r : EReal))
    (h3 : ∀ i, ∃ r : ℝ, x3 i = (r : EReal)) (b : Fin 2) (h : Fin 16) (i : Fin 2048) (e : Fin 64) :
    Cert.ReferenceIdeal.Read.val_main_v15 (F := Ideal) x0 x1 x2 x3 (ix4 b h i e)
      = mixLate (srow x0 x1 x3 b h i) (fun j : Fin 2048 => x2 (ix4 b h j e)) := by
  rw [ctx_apply]
  refine mixEarly_eq_mixLate (by norm_num : 0 < 2048) _ _ (fun j => ?_) (fun j => h2 (ix4 b h j e))
  -- each score of the row is a real: its factors are entries of the arrays
  exact score_real _ _ _ (fun d => h0 (ix4 b h i d)) (fun d => h1 (ix4 b h j d)) (h3 (ix4 b h i j))

end Cert.Attn.Ref

end
-- ==== Proof.Finite.lean ====
/-
  The precondition read as a fact about numbers: when the printed finiteness test answers 1, every entry of each of
  the four argument arrays is a real number (neither infinity).
-/
import proofs.«119278_j30107720745040_2_alg».proof.Proof.Gen.Pre_finite_inputs
import proofs.«119278_j30107720745040_2_alg».proof.Proof.LibRealOps
import Idealize.ShloMosaic.Lib.ReduceAll
import Idealize.ShloMosaic.Lib.ValueIdx

noncomputable section

namespace Cert.Attn

open Idealize.ShloMosaic Idealize.ShloMosaic.ValueIdx

/-- A rank-0 shape has exactly one index. -/
instance subsingleton_scalar_idx : Subsingleton Cert.Pre_finite_inputs.S_.Idx :=
  ⟨fun a b => funext fun d => d.elim0⟩

/-- If the finiteness test of the four arrays is all ones, every entry of every array is a real. -/
theorem real_of_pre [Cert.Pre_finite_inputs.Facts]
    (x0 x1 x2 : FVec Ideal Cert.Pre_finite_inputs.S2x16x2048x64 .f32) (x3 : FVec Ideal Cert.Pre_finite_inputs.S2x16x2048x2048 .f32)
    (h : Cert.Pre_finite_inputs.fn (F := Ideal) x0 x1 x2 x3 = fun _ => 1#1) :
    (∀ i, ∃ r : ℝ, x0 i = (r : EReal)) ∧ (∀ i, ∃ r : ℝ, x1 i = (r : EReal)) ∧ (∀ i, ∃ r : ℝ, x2 i = (r : EReal))
      ∧ (∀ i, ∃ r : ℝ, x3 i = (r : EReal)) := by
  -- the test's one answer, with the printed chain in view
  have h0 := congrFun h ValueIdx.ix0
  dsimp only [Cert.Pre_finite_inputs.fn, Cert.Pre_finite_inputs.fn_part1] at h0
  -- a conjunction of four bits is 1 only if each is
  obtain ⟨h012, h3⟩ := IntOp.andi_eq_one.1 h0
  obtain ⟨h01, h2⟩ := IntOp.andi_eq_one.1 h012
  obtain ⟨h0', h1⟩ := IntOp.andi_eq_one.1 h01
  -- each bit is an "all" over an array of element tests |x| < +∞, and such a test answers 1 only at a real
  refine ⟨fun i => ?_, fun i => ?_, fun i => ?_, fun i => ?_⟩
  · exact (RealOps.cmp_abs_lt_inf (x0 i)).1 (Host.reduce_andi_all _ _ _ _ _ h0' i)
  · exact (RealOps.cmp_abs_lt_inf (x1 i)).1 (Host.reduce_andi_all _ _ _ _ _ h1 i)
  · exact (RealOps.cmp_abs_lt_inf (x2 i)).1 (Host.reduce_andi_all _ _ _ _ _ h2 i)
  · exact (RealOps.cmp_abs_lt_inf (x3 i)).1 (Host.reduce_andi_all _ _ _ _ _ h3 i)

end Cert.Attn

end
-- ==== Proof.Bridge.lean ====
/-
  The two programs compute the same two arrays.

  At (b, h, i, ·) both programs form the same row of scores s(j) = (q(b,h,i,·) · k(b,h,j,·)) · 1/8 · mask(b,h,i,j) —
  the reference's division by 8 is the product with 1/8 on every extended real. Their attention results are the same
  softmax weights of that row, with no condition on the inputs. Their context results mix the value rows by those
  weights in the two orders (normalise then sum; sum then divide once), which agree when every input is a real: the
  precondition.
-/
import proofs.«119278_j30107720745040_2_alg».proof.Proof.KValue
import proofs.«119278_j30107720745040_2_alg».proof.Proof.RefLate
import proofs.«119278_j30107720745040_2_alg».proof.Proof.Finite

noncomputable section

namespace Cert.Attn.Bridge

open Idealize.ShloMosaic Idealize.ShloMosaic.TcCoe Idealize.SL.Sem Idealize.ShloMosaic.ValueIdx
open Cert.KernelIdeal Cert.KernelIdeal.Gen Cert.Attn Cert.Attn.Final

variable (m : (ℓ : Loc nD τ sig) → Buf (Elt Ideal) ℓ)

/-- The reference's attention stage of the kernel's arguments is the kernel program's attention result. -/
theorem attn_bridge (c : Dev nD) :
    Cert.ReferenceIdeal.Read.val_main_v14 (F := Ideal) (m ((c : Thread nD τ).loc main_arg0))
        (m ((c : Thread nD τ).loc main_arg1)) (m ((c : Thread nD τ).loc main_arg3))
      = Pipeline.afterTail₀ cfgs (dats m) 0 (V0 m) [hostOps1] c main_v6 := by
  funext y
  obtain ⟨b, h, i, j, rfl⟩ : ∃ (b : Fin 2) (h : Fin 16) (i : Fin 2048) (j : Fin 2048), y = ix4 b h i j :=
    ⟨y 0, y 1, y 2, y 3, eq_ix4 y⟩
  rw [Cert.Attn.Ref.attn_apply, attn_at]
  rfl

/-- Under the precondition the reference's context stage of the kernel's arguments is the kernel program's context
    result. -/
theorem ctx_bridge (c : Dev nD)
    (hpre : Cert.Pre_finite_inputs.fn (F := Ideal) (m ((c : Thread nD τ).loc main_arg0))
      (m ((c : Thread nD τ).loc main_arg1)) (m ((c : Thread nD τ).loc main_arg2))
      (m ((c : Thread nD τ).loc main_arg3)) = fun _ => 1#1) :
    Cert.ReferenceIdeal.Read.val_main_v15 (F := Ideal) (m ((c : Thread nD τ).loc main_arg0))
        (m ((c : Thread nD τ).loc main_arg1)) (m ((c : Thread nD τ).loc main_arg2)) (m ((c : Thread nD τ).loc main_arg3))
      = Pipeline.afterTail₀ cfgs (dats m) 0 (V0 m) [hostOps1] c main_v5 := by
  obtain ⟨h0, h1, h2, h3⟩ := real_of_pre _ _ _ _ hpre
  funext y
  obtain ⟨b, h, i, e, rfl⟩ : ∃ (b : Fin 2) (h : Fin 16) (i : Fin 2048) (e : Fin 64), y = ix4 b h i e :=
    ⟨y 0, y 1, y 2, y 3, eq_ix4 y⟩
  rw [Cert.Attn.Ref.ctx_late _ _ _ _ h0 h1 h2 h3, ctx_at]
  rfl

end Cert.Attn.Bridge

end
-- ==== Proof.lean ====
/-
  Fused attention against its plain reference: the certificate's five claims.

  The kernel takes q, k, v of shape 2 × 16 × 2048 × 64 and a multiplicative mask of shape 2 × 16 × 2048 × 2048. For each
  batch, head and query row it forms the scores (q · k) · 1/8 · mask, their softmax weights (the attention result), and
  the mix of the value rows by those weights (the context result), dividing by the softmax denominator after the sum.
  The reference divides the dot products by 8, normalises the weights, and then mixes. Over the extended reals the two
  attention results are one function of the inputs; the two context results agree wherever every input is a real, which
  is the precondition. Both programs run to the end from any memory (the frames), and the ideal pass rewrote nothing in
  the kernel, so its idealization is its own text.
-/
import proofs.«119278_j30107720745040_2_alg».proof.Defs
import proofs.«119278_j30107720745040_2_alg».proof.Proof.Gen.Kernel
import proofs.«119278_j30107720745040_2_alg».proof.Proof.Gen.Kernel.Skeleton
import proofs.«119278_j30107720745040_2_alg».proof.Proof.Gen.Kernel.Launch
import proofs.«119278_j30107720745040_2_alg».proof.Proof.Gen.Kernel.Points
import proofs.«119278_j30107720745040_2_alg».proof.Proof.Gen.Kernel.Frame
import proofs.«119278_j30107720745040_2_alg».proof.Proof.Gen.KernelIdeal
import proofs.«119278_j30107720745040_2_alg».proof.Proof.Gen.KernelIdeal.Skeleton
import proofs.«119278_j30107720745040_2_alg».proof.Proof.Gen.KernelIdeal.Launch
import proofs.«119278_j30107720745040_2_alg».proof.Proof.Gen.KernelIdeal.Points
import proofs.«119278_j30107720745040_2_alg».proof.Proof.Gen.KernelIdeal.Frame
import proofs.«119278_j30107720745040_2_alg».proof.Proof.Gen.ReferenceIdeal
import proofs.«119278_j30107720745040_2_alg».proof.Proof.Gen.ReferenceIdeal.Run
import proofs.«119278_j30107720745040_2_alg».proof.Proof.Gen.ReferenceIdeal.Read
import proofs.«119278_j30107720745040_2_alg».proof.Proof.Gen.Pre_finite_inputs
import proofs.«119278_j30107720745040_2_alg».proof.Proof.Bridge
import Idealize.ShloMosaic.Adequacy
import Idealize.ShloMosaic.Init

noncomputable section

namespace Cert.Proof

open Idealize.ShloMosaic Idealize.ShloMosaic.TcCoe Idealize.SL.Sem

/-- The kernel as printed runs to the end and leaves its arguments unchanged. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference is a straight line of host operations: its run, with the results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- No operation of the kernel was rewritten by the ideal pass. -/
theorem preserves : Cert.preserves_Kernel_KernelIdeal := trivial

open Cert.KernelIdeal Cert.KernelIdeal.Gen in
/-- From memories that agree on the four arguments, under the precondition, both idealized programs end with the same
    context and attention arrays: the kernel program's, which the reference's stages equal index by index. -/
theorem algebraic : Cert.algebraic_KernelIdeal_ReferenceIdeal := by
  intro m ρ m' ρ' hpre hagree
  refine ⟨fun c => Pipeline.afterTail₀ cfgs (dats m) 0 (V0 m) [hostOps1] c main_v5,
    fun c => Pipeline.afterTail₀ cfgs (dats m) 0 (V0 m) [hostOps1] c main_v6, ?_, ?_⟩
  · exact (θ_run defs _ _).mono (fun r h c =>
      ⟨(h c).2 main_v5 (Pipeline.mem_restRefs_of main_v5 (by decide) (by decide)),
        (h c).2 main_v6 (Pipeline.mem_restRefs_of main_v6 (by decide) (by decide)),
        ((h c).2 main_arg0 (Pipeline.mem_restRefs_of main_arg0 (by decide) (by decide))).trans (W_main_arg0 m (dats m) c),
        ((h c).2 main_arg1 (Pipeline.mem_restRefs_of main_arg1 (by decide) (by decide))).trans (W_main_arg1 m (dats m) c),
        ((h c).2 main_arg2 (Pipeline.mem_restRefs_of main_arg2 (by decide) (by decide))).trans (W_main_arg2 m (dats m) c),
        ((h c).2 main_arg3 (Pipeline.mem_restRefs_of main_arg3 (by decide) (by decide))).trans (W_main_arg3 m (dats m) c)⟩)
      (run_main m ρ)
  · refine (θ_run Cert.ReferenceIdeal.defs _ _).mono (fun r h c => ⟨(h c).1.trans ?_, (h c).2.1.trans ?_, (h c).2.2⟩)
      (Cert.ReferenceIdeal.Value.run (F := Ideal) m' ρ')
    · rw [(hagree c).1, (hagree c).2.1, (hagree c).2.2.1, (hagree c).2.2.2]
      exact (Cert.ReferenceIdeal.Read.val_main_v15_eq _ _ _ _).trans (Cert.Attn.Bridge.ctx_bridge m c (hpre c))
    · rw [(hagree c).1, (hagree c).2.1, (hagree c).2.2.2]
      exact (Cert.ReferenceIdeal.Read.val_main_v14_eq _ _ _).trans (Cert.Attn.Bridge.attn_bridge m c)

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
